-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S768 : Shape := ⟨1, ![768]⟩
abbrev S768x768 : Shape := ⟨2, ![768, 768]⟩
abbrev S768x512 : Shape := ⟨2, ![768, 512]⟩
abbrev S512 : Shape := ⟨1, ![512]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S768 .f32) (main_arg8 : FVec F S768x512 .f32) (main_arg9 : FVec F S512 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x512 .f32 := Host.absf main_arg8
  let main_cst_14 : FVec F S_ .f32 := constant S_ .f32 0x7F800000#32
  let main_v40 : FVec F S768x512 .f32 := broadcastInDim S768x512 ![] bcast_S_S768x512 main_cst_14
  let main_v41 : IVec S768x512 1 := cmpf .olt main_v39 main_v40
  let main_c_15 : IVec S_ 1 := constantI S_ 1 1#1
  let main_v42 : IVec S_ 1 := (fun x v => Host.reduce IntOp.andi x v reducesTo_S768x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S768x768 .f32) (main_arg5 : FVec F S768 .f32) (main_arg6 : FVec F S768 .f32) (main_arg7 : FVec F S768 .f32) (main_arg8 : FVec F S768x512 .f32) (main_arg9 : FVec F S512 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_v33

def fn {F : FTy → Type} [FloatOps F] (main_arg0 : FVec F S65536x768 .f32) (main_arg1 : FVec F S65536x768 .f32) (main_arg2 : FVec F S768 .f32) (main_arg3 : FVec F S768 .f32) (main_arg4 : FVec F S768x768 .f32) (main_arg5 : FVec F S768 .f32) (main_arg6 : FVec F S768 .f32) (main_arg7 : FVec F S768 .f32) (main_arg8 : FVec F S768x512 .f32) (main_arg9 : FVec F S512 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S65536x768 .f32 := Host.absf main_arg1
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_v13 main_v16
-- ==== Kernel.lean ====
abbrev S65536x768 : Shape := ⟨2, ![65536, 768]⟩
abbrev S768 : Shape := ⟨1, ![768]⟩
abbrev S768x768 : Shape := ⟨2, ![768, 768]⟩
abbrev S768x512 : Shape := ⟨2, ![768, 512]⟩
abbrev S512 : Shape := ⟨1, ![512]⟩
abbrev S1x768 : Shape := ⟨2, ![1, 768]⟩
abbrev S1x512 : Shape := ⟨2, ![1, 512]⟩
abbrev S65536x512 : Shape := ⟨2, ![65536, 512]⟩
abbrev S1024x768 : Shape := ⟨2, ![1024, 768]⟩
abbrev S1024x512 : Shape := ⟨2, ![1024, 512]⟩
abbrev S1024 : Shape := ⟨1, ![1024]⟩
abbrev S1024x1 : Shape := ⟨2, ![1024, 1]⟩

abbrev nBuf : Space → Nat
  | .hbm => 20
  | .vmem => 16
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x512, .f32⟩
  | .hbm, ⟨9, _⟩ => ⟨S512, .f32⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S1x512, .f32⟩
  | .hbm, ⟨16, _⟩ => ⟨S768x768, .bf16⟩
  | .hbm, ⟨17, _⟩ => ⟨S768x512, .bf16⟩
  | .hbm, ⟨18, _⟩ => ⟨S65536x768, .f32⟩
  | .hbm, ⟨19, _⟩ => ⟨S65536x512, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1x768, .f32⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S768x512, .bf16⟩
  | .local _ .vmem, ⟨11, _⟩ => ⟨S1x512, .f32⟩
  | .local _ .vmem, ⟨12, _⟩ => ⟨S1024x768, .f32⟩
  | .local _ .vmem, ⟨13, _⟩ => ⟨S1024x768, .f32⟩
  | .local _ .vmem, ⟨14, _⟩ => ⟨S1024x512, .f32⟩
  | .local _ .vmem, ⟨15, _⟩ => ⟨S1024x512, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S768_S1x768 : S768.ShapeCasts S1x768
  shapeCasts_S512_S1x512 : S512.ShapeCasts S1x512
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x768_S768x768_S1024x768_1_0_0_1_n_n_wf : DotDims.WF S1024x768 S768x768 S1024x768 [1] [0] [0] [1] [] []
  dot_S1024x768_S768x512_S1024x512_1_0_0_1_n_n_wf : DotDims.WF S1024x768 S768x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S65536x768.size a
  hwx0_1 : ∀ i : grid0.Coords, EltTy.bits .f32 = 32 ∨ (Rect.block (s := S65536x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x512.size a ≤ S768x512.size a
  hwx0_8 : ∀ i : grid0.Coords, EltTy.bits .bf16 = 32 ∨ (Rect.block (s := S768x512) S768x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x768.size a ≤ S65536x768.size a
  hwx0_10 : ∀ i : grid0.Coords, EltTy.bits .f32 = 32 ∨ (Rect.block (s := S65536x768) S1024x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S65536x512.size a
  hwx0_11 : ∀ i : grid0.Coords, EltTy.bits .f32 = 32 ∨ (Rect.block (s := S65536x512) S1024x512.size (cc0_transform_11 i) (hinb0_11 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf

abbrev win0_0 : Pipeline.Window sig grid0 :=
  Pipeline.Window.ofSpec (Memref.whole main_arg1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S768x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S1024x768.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x768 : Shape := ⟨2, ![65536, 768]⟩
abbrev S768 : Shape := ⟨1, ![768]⟩
abbrev S768x768 : Shape := ⟨2, ![768, 768]⟩
abbrev S768x512 : Shape := ⟨2, ![768, 512]⟩
abbrev S512 : Shape := ⟨1, ![512]⟩
abbrev S_ : Shape := ⟨0, ![]⟩
abbrev S65536 : Shape := ⟨1, ![65536]⟩
abbrev S65536x1 : Shape := ⟨2, ![65536, 1]⟩
abbrev S1x768 : Shape := ⟨2, ![1, 768]⟩
abbrev S65536x512 : Shape := ⟨2, ![65536, 512]⟩
abbrev S1x512 : Shape := ⟨2, ![1, 512]⟩

abbrev nBuf : Space → Nat
  | .hbm => 120
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536x768, .f32⟩
  | .hbm, ⟨2, _⟩ => ⟨S768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S768x512, .f32⟩
  | .hbm, ⟨9, _⟩ => ⟨S512, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .i32⟩
  | .hbm, ⟨17, _⟩ => ⟨S_, .f32⟩
  | .hbm, ⟨18, _⟩ => ⟨S65536, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x768, .f32⟩
  | .hbm, ⟨24, _⟩ => ⟨S65536x768, .f32⟩
  | .hbm, ⟨25, _⟩ => ⟨S65536x768, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S65536x768, .f32⟩
  | .hbm, ⟨41, _⟩ => ⟨S65536x768, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x768, .f32⟩
  | .hbm, ⟨47, _⟩ => ⟨S65536x768, .f32⟩
  | .hbm, ⟨48, _⟩ => ⟨S1x768, .f32⟩
  | .hbm, ⟨49, _⟩ => ⟨S65536x768, .f32⟩
  | .hbm, ⟨50, _⟩ => ⟨S65536x768, .f32⟩
  | .hbm, ⟨51, _⟩ => ⟨S1x768, .f32⟩
  | .hbm, ⟨52, _⟩ => ⟨S65536x768, .f32⟩
  | .hbm, ⟨53, _⟩ => ⟨S65536x768, .f32⟩
  | .hbm, ⟨54, _⟩ => ⟨S65536x768, .f32⟩
  | .hbm, ⟨55, _⟩ => ⟨S1x768, .f32⟩
  | .hbm, ⟨56, _⟩ => ⟨S65536x768, .f32⟩
  | .hbm, ⟨57, _⟩ => ⟨S65536x768, .f32⟩
  | .hbm, ⟨58, _⟩ => ⟨S_, .f32⟩
  | .hbm, ⟨59, _⟩ => ⟨S65536x768, .f32⟩
  | .hbm, ⟨60, _⟩ => ⟨S65536x768, .i1⟩
  | .hbm, ⟨61, _⟩ => ⟨S_, .f32⟩
  | .hbm, ⟨62, _⟩ => ⟨S65536x768, .f32⟩
  | .hbm, ⟨63, _⟩ => ⟨S65536x768, .f32⟩
  | .hbm, ⟨64, _⟩ => ⟨S65536x768, .f32⟩
  | .hbm, ⟨65, _⟩ => ⟨S_, .f32⟩
  | .hbm, ⟨66, _⟩ => ⟨S65536, .f32⟩
  | .hbm, ⟨67, _⟩ => ⟨S65536x1, .f32⟩
  | .hbm, ⟨68, _⟩ => ⟨S_, .f32⟩
  | .hbm, ⟨69, _⟩ => ⟨S65536x1, .f32⟩
  | .hbm, ⟨70, _⟩ => ⟨S65536x1, .f32⟩
  | .hbm, ⟨71, _⟩ => ⟨S_, .i32⟩
  | .hbm, ⟨72, _⟩ => ⟨S_, .f32⟩
  | .hbm, ⟨73, _⟩ => ⟨S65536, .f32⟩
  | .hbm, ⟨74, _⟩ => ⟨S65536x1, .f32⟩
  | .hbm, ⟨75, _⟩ => ⟨S_, .f32⟩
  | .hbm, ⟨76, _⟩ => ⟨S65536x1, .f32⟩
  | .hbm, ⟨77, _⟩ => ⟨S65536x1, .f32⟩
  | .hbm, ⟨78, _⟩ => ⟨S65536x768, .f32⟩
  | .hbm, ⟨79, _⟩ => ⟨S65536x768, .f32⟩
  | .hbm, ⟨80, _⟩ => ⟨S65536x768, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S65536, .f32⟩
  | .hbm, ⟨86, _⟩ => ⟨S65536x1, .f32⟩
  | .hbm, ⟨87, _⟩ => ⟨S65536x1, .f32⟩
  | .hbm, ⟨88, _⟩ => ⟨S65536x1, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S65536x1, .f32⟩
  | .hbm, ⟨94, _⟩ => ⟨S65536x1, .f32⟩
  | .hbm, ⟨95, _⟩ => ⟨S65536x768, .f32⟩
  | .hbm, ⟨96, _⟩ => ⟨S65536x768, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S65536x1, .f32⟩
  | .hbm, ⟨101, _⟩ => ⟨S65536x768, .f32⟩
  | .hbm, ⟨102, _⟩ => ⟨S65536x768, .f32⟩
  | .hbm, ⟨103, _⟩ => ⟨S1x768, .f32⟩
  | .hbm, ⟨104, _⟩ => ⟨S65536x768, .f32⟩
  | .hbm, ⟨105, _⟩ => ⟨S65536x768, .f32⟩
  | .hbm, ⟨106, _⟩ => ⟨S1x768, .f32⟩
  | .hbm, ⟨107, _⟩ => ⟨S65536x768, .f32⟩
  | .hbm, ⟨108, _⟩ => ⟨S65536x768, .f32⟩
  | .hbm, ⟨109, _⟩ => ⟨S65536x512, .f32⟩
  | .hbm, ⟨110, _⟩ => ⟨S1x512, .f32⟩
  | .hbm, ⟨111, _⟩ => ⟨S65536x512, .f32⟩
  | .hbm, ⟨112, _⟩ => ⟨S65536x512, .f32⟩
  | .hbm, ⟨113, _⟩ => ⟨S_, .f32⟩
  | .hbm, ⟨114, _⟩ => ⟨S65536x512, .f32⟩
  | .hbm, ⟨115, _⟩ => ⟨S65536x512, .i1⟩
  | .hbm, ⟨116, _⟩ => ⟨S_, .f32⟩
  | .hbm, ⟨117, _⟩ => ⟨S65536x512, .f32⟩
  | .hbm, ⟨118, _⟩ => ⟨S65536x512, .f32⟩
  | .hbm, ⟨119, _⟩ => ⟨S65536x512, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_cst_3 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_v28 : Ref sig .tc := ⟨.hbm, 67, rfl⟩
abbrev main_cst_5 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_cst_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_cst_1 : Ref sig .tc := ⟨.hbm, 82, rfl⟩
abbrev main_call2_v8 : Ref sig .tc := ⟨.hbm, 83, rfl⟩
abbrev main_call2_cst_2 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_cst_3 : Ref sig .tc := ⟨.hbm, 89, rfl⟩
abbrev main_call2_v13 : Ref sig .tc := ⟨.hbm, 90, rfl⟩
abbrev main_call2_cst_4 : Ref sig .tc := ⟨.hbm, 91, rfl⟩
abbrev main_call2_call0_v0 : Ref sig .tc := ⟨.hbm, 92, rfl⟩
abbrev main_call2_call0_v1 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_7 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_cst_8 : Ref sig .tc := ⟨.hbm, 113, rfl⟩
abbrev main_v49 : Ref sig .tc := ⟨.hbm, 114, rfl⟩
abbrev main_v50 : Ref sig .tc := ⟨.hbm, 115, rfl⟩
abbrev main_cst_9 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩

abbrev nD : Nat := 1
abbrev τ : Topo := Topo.v7x

variable {F : FTy → Type} [FloatOps F]

class Facts₀ : Prop where
  reducesTo_S65536x768_S65536_d1 : S65536x768.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x768_0_1 : S65536x1.BroadcastsInDim S65536x768 (![0, 1] : Fin 2 → Fin S65536x768.rank)
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  bcast_S_S65536x768 : S_.BroadcastsInDim S65536x768 (![] : Fin 0 → Fin S65536x768.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x768_S768x768_S65536x768_1_0_0_1_n_n_wf : DotDims.WF S65536x768 S768x768 S65536x768 [1] [0] [0] [1] [] []
  dot_S65536x768_S768x512_S65536x512_1_0_0_1_n_n_wf : DotDims.WF S65536x768 S768x512 S65536x512 [1] [0] [0] [1] [] []

variable [Facts₀]

def dot_S65536x768_S768x768_S65536x768_1_0_0_1_n_n : DotDims S65536x768 S768x768 S65536x768 where
  lhsContracting := [1]
  rhsContracting := [0]
  lhsNonContracting := [0]
  rhsNonContracting := [1]
  lhsBatch := []
  rhsBatch := []
  wf := dot_S65536x768_S768x768_S65536x768_1_0_0_1_n_n_wf
def dot_S65536x768_S768x512_S65536x512_1_0_0_1_n_n : DotDims S65536x768 S768x512 S65536x512 where
  lhsContracting := [1]
  rhsContracting := [0]
  lhsNonContracting := [0]
  rhsNonContracting := [1]
  lhsBatch := []
  rhsBatch := []
  wf := dot_S65536x768_S768x512_S65536x512_1_0_0_1_n_n_wf

class Facts : Prop extends Facts₀ where

variable [Facts]
-- ==== Proof.Spec.lean ====
/-
  The mathematics of one output row, free of any program.

  Each output entry of the feature mixer depends on ONE input row `x : Fin 768 → EReal`, the LayerNorm
  parameters `γ β`, one column `w` of the weight matrix and one bias entry `b`:

    out = leaky (∑ k, ((x k - μ) · rsqrt (v + ε) · γ k + β k) · w k + b),   μ = (∑ k, x k) / 768.

  The two programs differ only in how the variance `v` is obtained:
    one pass : v = max ((∑ x k²) / 768 - μ², 0)
    two pass : v = (∑ (x k - μ)²) / 768.
  For a row of REAL numbers these agree: ∑ (x k - μ)² = ∑ x k² - 768 μ², and the left side is a sum of
  squares, hence nonnegative, so the clamp at 0 is the identity (`var_twoPass_eq_onePass`). The identity
  needs finiteness: on the extended reals `∞ - ∞` is not `0`.
-/
import Idealize.ShloMosaic.PureOps.Ideal
import Idealize.ShloMosaic.PureOps.Ideal.Laws

noncomputable section

namespace Cert.Mixer

open Idealize.ShloMosaic

/-- The pattern of `768.0` denotes the real `768`. -/
theorem ofBits_768 : Ideal.ofBits .f32 0x44400000#32 = ((768 : ℝ) : EReal) := by
  simp [Ideal.ofBits, Ideal.ieee, -EReal.coe_mul]; norm_num

/-- The mean of a row: its sum over 768. -/
def rowMean (x : Fin 768 → EReal) : EReal :=
  Ideal.div (∑ k, x k) (Ideal.ofBits .f32 0x44400000#32)

/-- The variance as mean of squares minus squared mean, clamped at zero. -/
def varOnePass (x : Fin 768 → EReal) : EReal :=
  max (Ideal.div (∑ k, x k * x k) (Ideal.ofBits .f32 0x44400000#32) - rowMean x * rowMean x)
    (Ideal.ofBits .f32 0x00000000#32)

/-- The variance as the mean of the squared deviations from the mean. -/
def varTwoPass (x : Fin 768 → EReal) : EReal :=
  Ideal.div (∑ k, (x k - rowMean x) * (x k - rowMean x)) (Ideal.ofBits .f32 0x44400000#32)

/-- One normalized, scaled and shifted entry of the row, for a given variance `v`. -/
def normed (v : EReal) (x γ β : Fin 768 → EReal) (k : Fin 768) : EReal :=
  (x k - rowMean x) * Ideal.rsqrt (v + Ideal.ofBits .f32 0x3727C5AC#32) * γ k + β k

/-- The leaky rectifier: `y` where `y ≥ 0`, the slope times `y` elsewhere. -/
def leaky (y : EReal) : EReal :=
  Scalar.select (Ideal.cmp .oge y (Ideal.ofBits .f32 0x00000000#32)) y (Ideal.ofBits .f32 0x3C23D70A#32 * y)

/-- One output entry: the normalized row against a weight column, plus the bias, rectified. -/
def rowOut (v : EReal) (x γ β w : Fin 768 → EReal) (b : EReal) : EReal :=
  leaky ((∑ k, normed v x γ β k * w k) + b)

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean squared deviation is the mean square minus the squared mean. -/
theorem real_var (r : Fin 768 → ℝ) :
    (∑ k, (r k - (∑ k, r k) * (1 / 768)) * (r k - (∑ k, r k) * (1 / 768))) * (1 / 768)
      = (∑ k, r k * r k) * (1 / 768) - (∑ k, r k) * (1 / 768) * ((∑ k, r k) * (1 / 768)) := by
  have h : ∀ μ : ℝ, ∑ k, (r k - μ) * (r k - μ) = (∑ k, r k * r k) - 2 * μ * (∑ k, r k) + 768 * (μ * μ) := by
    intro μ
    have e : ∀ k, (r k - μ) * (r k - μ) = r k * r k - 2 * μ * r k + μ * μ := fun k => by ring
    simp only [e, Finset.sum_add_distrib, Finset.sum_sub_distrib, ← Finset.mul_sum, Finset.sum_const,
      Finset.card_univ, Fintype.card_fin, nsmul_eq_mul]
    push_cast; ring
  rw [h]; ring

/-- For a row of real numbers the two variances are one number. -/
theorem var_twoPass_eq_onePass (x : Fin 768 → EReal) (hx : ∀ k, ∃ r : ℝ, x k = (r : EReal)) :
    varTwoPass x = varOnePass x := by
  choose r hr using hx
  obtain rfl : x = fun k => (r k : EReal) := funext hr
  unfold varTwoPass varOnePass rowMean
  rw [ofBits_768, Ideal.ofBits_zero_f32]
  simp only [Ideal.div_coe (by norm_num : (768 : ℝ) ≠ 0), ← coe_sum, ← EReal.coe_mul, ← EReal.coe_sub]
  rw [real_var]
  refine (max_eq_left (EReal.coe_nonneg.mpr ?_)).symm
  rw [← real_var]
  exact mul_nonneg (Finset.sum_nonneg fun k _ => mul_self_nonneg _) (by norm_num)

end Cert.Mixer

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.KerRow.lean ====
/-
  The kernel body's arithmetic at one entry of an output block.

  The body works on a block of 1024 rows. For a block `x` of inputs, the row parameters `g`, `be` (one row of 768
  each), the weights `w` and the bias row `bi`, entry `(p, q)` of what the body stores depends only on row `p` of
  `x`: it is `rowOut` of that row with the one-pass variance — the row's mean and mean square by lane sums over
  768, the clamp at zero, the reciprocal square root, scale and shift, the product with column `q` of the weights
  summed over the 768 shared positions (the narrowing of the operands to bf16 is the identity on exact values), the
  bias and the leaky rectifier.
-/
import proofs.«165396_j1288490189005_2_alg».proof.Proof.Gen.KernelIdeal
import proofs.«165396_j1288490189005_2_alg».proof.Proof.Gen.KernelIdeal.Skeleton
import proofs.«165396_j1288490189005_2_alg».proof.Proof.Spec
import proofs.«165396_j1288490189005_2_alg».proof.Proof.LibIndex

noncomputable section

namespace Cert.KernelIdeal.RowValue

open Cert.KernelIdeal Cert.KernelIdeal.Gen Idealize.ShloMosaic Idealize.ShloMosaic.ValueIdx Cert.Mixer Cert.LayoutLib

/-- The block's row means, as a column. -/
def kMean (x : FVec Ideal S1024x768 .f32) : FVec Ideal S1024x1 .f32 :=
  divf (shapeCast S1024x1 (multiReduction .add [1] S1024 x 0x00000000#32 reduces_S1024x768_S1024 (.inl rfl) rfl) shapeCasts_S1024_S1024x1)
    (broadcast S1024x1 (Scalar.ofBits .f32 0x44400000#32))

/-- The block's row variances (mean square minus squared mean, clamped at zero), as a column. -/
def kVar (x : FVec Ideal S1024x768 .f32) : FVec Ideal S1024x1 .f32 :=
  maximumf
    (subf
      (divf (shapeCast S1024x1 (multiReduction .add [1] S1024 (mulf x x) 0x00000000#32 reduces_S1024x768_S1024 (.inl rfl) rfl) shapeCasts_S1024_S1024x1)
        (broadcast S1024x1 (Scalar.ofBits .f32 0x44400000#32)))
      (mulf (kMean x) (kMean x)))
    (broadcast S1024x1 (Scalar.ofBits .f32 0x00000000#32))

/-- The normalized, scaled and shifted block. -/
def kNorm (x : FVec Ideal S1024x768 .f32) (g be : FVec Ideal S1x768 .f32) : FVec Ideal S1024x768 .f32 :=
  addf
    (mulf
      (mulf (subf x (broadcastTo S1024x768 (kMean x) broadcasts_S1024x1_S1024x768))
        (broadcastTo S1024x768 (rsqrt (addf (kVar x) (broadcast S1024x1 (Scalar.ofBits .f32 0x3727C5AC#32)))) broadcasts_S1024x1_S1024x768))
      (broadcastTo S1024x768 (shapeCast S1x768 g shapeCasts_S1x768_S1x768) broadcasts_S1x768_S1024x768))
    (broadcastTo S1024x768 (shapeCast S1x768 be shapeCasts_S1x768_S1x768) broadcasts_S1x768_S1024x768)

theorem kMean_apply (x : FVec Ideal S1024x768 .f32) (p : Fin 1024) (u : Fin 1) :
    kMean x (ix2 p u) = rowMean (fun k => x (ix2 p k)) := by
  unfold kMean rowMean
  show Ideal.div (shapeCast S1024x1 _ shapeCasts_S1024_S1024x1 (ix2 p u)) (Ideal.ofBits .f32 0x44400000#32) = _
  rw [shapeCast_col_apply]
  show Ideal.div (Ideal.reduceAdd reduces_S1024x768_S1024 x (ix1 p)) _ = _
  rw [reduceAdd_row_apply]

theorem kVar_apply (x : FVec Ideal S1024x768 .f32) (p : Fin 1024) (u : Fin 1) :
    kVar x (ix2 p u) = varOnePass (fun k => x (ix2 p k)) := by
  unfold kVar varOnePass
  show max (Ideal.div (shapeCast S1024x1 _ shapeCasts_S1024_S1024x1 (ix2 p u)) (Ideal.ofBits .f32 0x44400000#32)
      - kMean x (ix2 p u) * kMean x (ix2 p u)) (Ideal.ofBits .f32 0x00000000#32) = _
  rw [shapeCast_col_apply, kMean_apply]
  show max (Ideal.div (Ideal.reduceAdd reduces_S1024x768_S1024 (mulf x x) (ix1 p)) _ - _) _ = _
  rw [reduceAdd_row_apply]
  rfl

theorem kNorm_apply (x : FVec Ideal S1024x768 .f32) (g be : FVec Ideal S1x768 .f32) (p : Fin 1024) (k : Fin 768) :
    kNorm x g be (ix2 p k)
      = normed (varOnePass (fun k => x (ix2 p k))) (fun k => x (ix2 p k)) (fun k => g (ix2 (0 : Fin 1) k))
          (fun k => be (ix2 (0 : Fin 1) k)) k := by
  unfold kNorm normed
  show (x (ix2 p k) - broadcastTo S1024x768 (kMean x) broadcasts_S1024x1_S1024x768 (ix2 p k))
        * broadcastTo S1024x768 (rsqrt (addf (kVar x) (broadcast S1024x1 (Scalar.ofBits .f32 0x3727C5AC#32)))) broadcasts_S1024x1_S1024x768 (ix2 p k)
        * broadcastTo S1024x768 (shapeCast S1x768 g shapeCasts_S1x768_S1x768) broadcasts_S1x768_S1024x768 (ix2 p k)
      + broadcastTo S1024x768 (shapeCast S1x768 be shapeCasts_S1x768_S1x768) broadcasts_S1x768_S1024x768 (ix2 p k) = _
  rw [broadcastTo_col_apply, broadcastTo_col_apply, broadcastTo_1b_ab_apply, broadcastTo_1b_ab_apply, shapeCast_self, shapeCast_self,
    kMean_apply]
  show (_ - _) * Ideal.rsqrt (kVar x (ix2 p (0 : Fin 1)) + Ideal.ofBits .f32 0x3727C5AC#32) * _ + _ = _
  rw [kVar_apply]

/-- The weights' product and the bias, at an entry of a 768-column block: a sum over the 768 shared positions. -/
theorem head768_apply (xn : FVec Ideal S1024x768 .f32) (w : FVec Ideal S768x768 .bf16) (bi : FVec Ideal S1x768 .f32)
    (p : Fin 1024) (q : Fin 768) :
    addf (matmul dot_S1024x768_S768x768_S1024x768_1_0_0_1_n_n none (truncf .bf16 xn bitsLt_bf16_f32)
          (shapeCast S768x768 w shapeCasts_S768x768_S768x768) (constant S1024x768 .f32 0x00000000#32))
        (broadcastTo S1024x768 (shapeCast S1x768 bi shapeCasts_S1x768_S1x768) broadcasts_S1x768_S1024x768) (ix2 p q)
      = (∑ k : Fin 768, xn (ix2 p k) * w (ix2 k q)) + bi (ix2 (0 : Fin 1) q) := by
  show FloatOps.matmul dot_S1024x768_S768x768_S1024x768_1_0_0_1_n_n none (truncf .bf16 xn bitsLt_bf16_f32)
        (shapeCast S768x768 w shapeCasts_S768x768_S768x768) (constant S1024x768 .f32 0x00000000#32) (ix2 p q)
      + broadcastTo S1024x768 (shapeCast S1x768 bi shapeCasts_S1x768_S1x768) broadcasts_S1x768_S1024x768 (ix2 p q) = _
  rw [Ideal.matmul_constant_zero_apply, dot_plain_sum dot_S1024x768_S768x768_S1024x768_1_0_0_1_n_n rfl, broadcastTo_1b_ab_apply,
    shapeCast_self, shapeCast_self]
  rfl

/-- The same at an entry of a 512-column block. -/
theorem head512_apply (xn : FVec Ideal S1024x768 .f32) (w : FVec Ideal S768x512 .bf16) (bi : FVec Ideal S1x512 .f32)
    (p : Fin 1024) (q : Fin 512) :
    addf (matmul dot_S1024x768_S768x512_S1024x512_1_0_0_1_n_n none (truncf .bf16 xn bitsLt_bf16_f32)
          (shapeCast S768x512 w shapeCasts_S768x512_S768x512) (constant S1024x512 .f32 0x00000000#32))
        (broadcastTo S1024x512 (shapeCast S1x512 bi shapeCasts_S1x512_S1x512) broadcasts_S1x512_S1024x512) (ix2 p q)
      = (∑ k : Fin 768, xn (ix2 p k) * w (ix2 k q)) + bi (ix2 (0 : Fin 1) q) := by
  show FloatOps.matmul dot_S1024x768_S768x512_S1024x512_1_0_0_1_n_n none (truncf .bf16 xn bitsLt_bf16_f32)
        (shapeCast S768x512 w shapeCasts_S768x512_S768x512) (constant S1024x512 .f32 0x00000000#32) (ix2 p q)
      + broadcastTo S1024x512 (shapeCast S1x512 bi shapeCasts_S1x512_S1x512) broadcasts_S1x512_S1024x512 (ix2 p q) = _
  rw [Ideal.matmul_constant_zero_apply, dot_plain_sum dot_S1024x768_S768x512_S1024x512_1_0_0_1_n_n rfl, broadcastTo_1b_ab_apply,
    shapeCast_self, shapeCast_self]
  rfl

/-- THE CONTEXT BRANCH: entry `(p, q)` of what the body stores into its first output block. -/
theorem ctx_entry (x : FVec Ideal S1024x768 .f32) (g be : FVec Ideal S1x768 .f32) (w : FVec Ideal S768x768 .bf16)
    (bi : FVec Ideal S1x768 .f32) (p : Fin 1024) (q : Fin 768) :
    k0_pay5 (F := Ideal) (k0_pay2 (F := Ideal) x g be w bi) (k0_pay3 (F := Ideal) x g be w bi) (k0_pay4 (F := Ideal)) (ix2 p q)
      = rowOut (varOnePass (fun k => x (ix2 p k))) (fun k => x (ix2 p k)) (fun k => g (ix2 (0 : Fin 1) k))
          (fun k => be (ix2 (0 : Fin 1) k)) (fun k => w (ix2 k q)) (bi (ix2 (0 : Fin 1) q)) := by
  have hY : k0_pay2 (F := Ideal) x g be w bi (ix2 p q)
      = (∑ k : Fin 768, normed (varOnePass (fun k => x (ix2 p k))) (fun k => x (ix2 p k)) (fun k => g (ix2 (0 : Fin 1) k))
          (fun k => be (ix2 (0 : Fin 1) k)) k * w (ix2 k q)) + bi (ix2 (0 : Fin 1) q) := by
    refine (head768_apply (kNorm x g be) w bi p q).trans ?_
    simp only [kNorm_apply]
  show Scalar.select (Ideal.cmp .oge (k0_pay2 (F := Ideal) x g be w bi (ix2 p q)) (Ideal.ofBits .f32 0x00000000#32))
      (k0_pay2 (F := Ideal) x g be w bi (ix2 p q)) (Ideal.ofBits .f32 0x3C23D70A#32 * k0_pay2 (F := Ideal) x g be w bi (ix2 p q)) = _
  rw [hY]
  rfl

/-- THE VECTOR BRANCH: entry `(p, q)` of what the body stores into its second output block. -/
theorem vec_entry (x : FVec Ideal S1024x768 .f32) (g be : FVec Ideal S1x768 .f32) (w : FVec Ideal S768x512 .bf16)
    (bi : FVec Ideal S1x512 .f32) (p : Fin 1024) (q : Fin 512) :
    k0_pay1 (F := Ideal) (k0_pay6 (F := Ideal) x g be w bi) (ix2 p q)
      = rowOut (varOnePass (fun k => x (ix2 p k))) (fun k => x (ix2 p k)) (fun k => g (ix2 (0 : Fin 1) k))
          (fun k => be (ix2 (0 : Fin 1) k)) (fun k => w (ix2 k q)) (bi (ix2 (0 : Fin 1) q)) := by
  have hY : k0_pay6 (F := Ideal) x g be w bi (ix2 p q)
      = (∑ k : Fin 768, normed (varOnePass (fun k => x (ix2 p k))) (fun k => x (ix2 p k)) (fun k => g (ix2 (0 : Fin 1) k))
          (fun k => be (ix2 (0 : Fin 1) k)) k * w (ix2 k q)) + bi (ix2 (0 : Fin 1) q) := by
    refine (head512_apply (kNorm x g be) w bi p q).trans ?_
    simp only [kNorm_apply]
  show Scalar.select (Ideal.cmp .oge (k0_pay6 (F := Ideal) x g be w bi (ix2 p q)) (Ideal.ofBits .f32 0x00000000#32))
      (k0_pay6 (F := Ideal) x g be w bi (ix2 p q)) (Ideal.ofBits .f32 0x3C23D70A#32 * k0_pay6 (F := Ideal) x g be w bi (ix2 p q)) = _
  rw [hY]
  rfl

end Cert.KernelIdeal.RowValue

end
-- ==== Proof.Out.lean ====
/-
  The result arrays as functions of the argument arrays, and the bridge between the two variances.

  For a variance rule `v`, `mixOut v Z γ β W b` is the array whose entry `(r, j)` is `rowOut` of row `r` of `Z`
  against column `j` of `W` and entry `j` of `b`. The kernel ends at `mixOut varOnePass`, the reference at
  `mixOut varTwoPass`; when every entry of `Z` is a real number the two are one array.
-/
import proofs.«165396_j1288490189005_2_alg».proof.Proof.Spec
import Idealize.ShloMosaic.Lib.ValueIdx

noncomputable section

namespace Cert.Mixer

open Idealize.ShloMosaic Idealize.ShloMosaic.ValueIdx

/-- Entry `(r, j)` of a branch's result, for the variance rule `v`. -/
def entry (v : (Fin 768 → EReal) → EReal) {D : ℕ} (Z : (⟨2, ![65536, 768]⟩ : Shape).Idx → EReal)
    (γ β : (⟨1, ![768]⟩ : Shape).Idx → EReal) (W : (⟨2, ![768, D]⟩ : Shape).Idx → EReal)
    (b : (⟨1, ![D]⟩ : Shape).Idx → EReal) (r : Fin 65536) (j : Fin D) : EReal :=
  rowOut (v (fun k => Z (ix2 r k))) (fun k => Z (ix2 r k)) (fun k => γ (ix1 k)) (fun k => β (ix1 k))
    (fun k => W (ix2 k j)) (b (ix1 j))

/-- An entry depends on its row and column numbers only. -/
theorem entry_of_val_eq (v : (Fin 768 → EReal) → EReal) {D : ℕ} (Z : (⟨2, ![65536, 768]⟩ : Shape).Idx → EReal)
    (γ β : (⟨1, ![768]⟩ : Shape).Idx → EReal) (W : (⟨2, ![768, D]⟩ : Shape).Idx → EReal)
    (b : (⟨1, ![D]⟩ : Shape).Idx → EReal) {r r' : Fin 65536} {j j' : Fin D} (hr : r.val = r'.val) (hj : j.val = j'.val) :
    entry v Z γ β W b r j = entry v Z γ β W b r' j' := by
  obtain rfl := Fin.ext hr
  obtain rfl := Fin.ext hj
  rfl

/-- A branch's whole result array. -/
def mixOut (v : (Fin 768 → EReal) → EReal) {D : ℕ} (Z : (⟨2, ![65536, 768]⟩ : Shape).Idx → EReal)
    (γ β : (⟨1, ![768]⟩ : Shape).Idx → EReal) (W : (⟨2, ![768, D]⟩ : Shape).Idx → EReal)
    (b : (⟨1, ![D]⟩ : Shape).Idx → EReal) : (⟨2, ![65536, D]⟩ : Shape).Idx → EReal :=
  fun i => entry v Z γ β W b ⟨(i 0).val, idx2_lt0 i⟩ ⟨(i 1).val, idx2_lt1 i⟩

/-- When the input array holds real numbers, the one-pass and two-pass variances give the same result array:
    row by row, `var_twoPass_eq_onePass`. -/
theorem mixOut_twoPass_eq_onePass {D : ℕ} (Z : (⟨2, ![65536, 768]⟩ : Shape).Idx → EReal)
    (γ β : (⟨1, ![768]⟩ : Shape).Idx → EReal) (W : (⟨2, ![768, D]⟩ : Shape).Idx → EReal)
    (b : (⟨1, ![D]⟩ : Shape).Idx → EReal) (hZ : ∀ i, ∃ x : ℝ, Z i = (x : EReal)) :
    mixOut varTwoPass Z γ β W b = mixOut varOnePass Z γ β W b := by
  funext i
  unfold mixOut entry
  rw [var_twoPass_eq_onePass _ fun k => hZ _]

end Cert.Mixer

end
-- ==== Proof.KerValue.lean ====
/-
  From blocks to arrays: what each output array of the kernel holds after the run.

  The grid has 64 points; point `t` reads rows `1024 t … 1024 t + 1023` of each input array and writes the same
  rows of each output array; the parameter arrays are read whole at every point. An output block's entry `(p, q)`
  is the row function of row `p` of the input block, which is row `1024 t + p` of the input array; so the block is
  the restriction of ONE array-level function, `mixOut varOnePass` of the argument arrays. The 64 blocks tile
  each output array (row `r` lies in block `r / 1024`), hence the array ends holding that function.

  The parameter arrays reach the kernel through host operations: each vector as one row (a reshape), each weight
  matrix narrowed to bf16 — the identity on exact values.
-/
import proofs.«165396_j1288490189005_2_alg».proof.Proof.Gen.KernelIdeal.Value
import proofs.«165396_j1288490189005_2_alg».proof.Proof.KerRow
import proofs.«165396_j1288490189005_2_alg».proof.Proof.Out
import Idealize.ShloMosaic.Lib.StableHlo.Run
import Idealize.ShloMosaic.Lib.ValueLayout

noncomputable section

namespace Cert.KernelIdeal.ArrayValue

open Cert.KernelIdeal Cert.KernelIdeal.Gen Cert.KernelIdeal.RowValue Idealize.ShloMosaic Idealize.ShloMosaic.TcCoe Idealize.SL.Sem
open Idealize.ShloMosaic.ValueIdx Cert.Mixer Cert.LayoutLib Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

theorem ht64 (t : Fin cfg0.N) : t.val < 64 := lt_of_lt_of_eq t.isLt N_0

/-- The index maps of the row-blocked windows, decided over the 64 points: block `t` on the rows, block 0 on the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The index maps of the parameter windows, decided over the 64 points: block 0 on both axes. -/
theorem idx_res : ∀ (t : Fin cfg0.N) (a : Fin 2),
    win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 :=
  (by decide +kernel : ∀ (t : Fin grid0.N) (a : Fin 2), _)

/-! ## The parameter arrays as the region finds them -/

theorem V_main_v0 (c : Dev nD) : (V m c main_v0 : S1x768.Idx → EReal) = shapeCast S1x768 (m ((c : Thread nD τ).loc main_arg2)) shapeCasts_S768_S1x768 := by
  dsimp only [Gen.V, Gen.hostOps0]; after_results; rfl

theorem V_main_v1 (c : Dev nD) : (V m c main_v1 : S1x768.Idx → EReal) = shapeCast S1x768 (m ((c : Thread nD τ).loc main_arg3)) shapeCasts_S768_S1x768 := by
  dsimp only [Gen.V, Gen.hostOps0]; after_results; rfl

theorem V_main_v2 (c : Dev nD) : (V m c main_v2 : S1x768.Idx → EReal) = shapeCast S1x768 (m ((c : Thread nD τ).loc main_arg5)) shapeCasts_S768_S1x768 := by
  dsimp only [Gen.V, Gen.hostOps0]; after_results; rfl

theorem V_main_v3 (c : Dev nD) : (V m c main_v3 : S1x768.Idx → EReal) = shapeCast S1x768 (m ((c : Thread nD τ).loc main_arg6)) shapeCasts_S768_S1x768 := by
  dsimp only [Gen.V, Gen.hostOps0]; after_results; rfl

theorem V_main_v4 (c : Dev nD) : (V m c main_v4 : S1x768.Idx → EReal) = shapeCast S1x768 (m ((c : Thread nD τ).loc main_arg7)) shapeCasts_S768_S1x768 := by
  dsimp only [Gen.V, Gen.hostOps0]; after_results; rfl

theorem V_main_v5 (c : Dev nD) : (V m c main_v5 : S1x512.Idx → EReal) = shapeCast S1x512 (m ((c : Thread nD τ).loc main_arg9)) shapeCasts_S512_S1x512 := by
  dsimp only [Gen.V, Gen.hostOps0]; after_results; rfl

theorem V_main_v6 (c : Dev nD) : (V m c main_v6 : S768x768.Idx → EReal) = ((m ((c : Thread nD τ).loc main_arg4)) : S768x768.Idx → EReal) := by
  dsimp only [Gen.V, Gen.hostOps0]; after_results; rfl

theorem V_main_v7 (c : Dev nD) : (V m c main_v7 : S768x512.Idx → EReal) = ((m ((c : Thread nD τ).loc main_arg8)) : S768x512.Idx → EReal) := by
  dsimp only [Gen.V, Gen.hostOps0]; after_results; rfl

/-! ## Each window's block at a point, read off the argument arrays -/

/-- Window 0's block at point `t` is rows `1024 t … 1024 t + 1023` of its array. -/
theorem iblk0_apply (c : Dev nD) (t : Fin cfg0.N) (p : Fin 1024) (k : Fin 768) :
    iblk m c 0 t (ix2 p k)
      = (m ((c : Thread nD τ).loc main_arg1)) (ix2 (⟨t.val * 1024 + p.val, by have := ht64 t; have := p.isLt; omega⟩ : Fin 65536) k) := by
  have e := idx_rows t
  show V m c main_arg1 (((cfg0.win 0).blk t).view.emb (ix2 p k)) = _
  rw [V_main_arg1]
  refine congrArg (m ((c : Thread nD τ).loc main_arg1)) (funext fun a => Fin.ext ?_)
  match a with
  | ⟨0, _⟩ => show win0_0.index t (0 : Fin 2) * 1024 + 1 * p.val = t.val * 1024 + p.val; rw [e.1]; omega
  | ⟨1, _⟩ => show win0_0.index t (1 : Fin 2) * 768 + 1 * k.val = k.val; rw [e.2.1]; omega

/-- Window 1's block at point `t` is rows `1024 t … 1024 t + 1023` of its array. -/
theorem iblk1_apply (c : Dev nD) (t : Fin cfg0.N) (p : Fin 1024) (k : Fin 768) :
    iblk m c 1 t (ix2 p k)
      = (m ((c : Thread nD τ).loc main_arg0)) (ix2 (⟨t.val * 1024 + p.val, by have := ht64 t; have := p.isLt; omega⟩ : Fin 65536) k) := by
  have e := idx_rows t
  show V m c main_arg0 (((cfg0.win 1).blk t).view.emb (ix2 p k)) = _
  rw [V_main_arg0]
  refine congrArg (m ((c : Thread nD τ).loc main_arg0)) (funext fun a => Fin.ext ?_)
  match a with
  | ⟨0, _⟩ => show win0_1.index t (0 : Fin 2) * 1024 + 1 * p.val = t.val * 1024 + p.val; rw [e.2.2.1]; omega
  | ⟨1, _⟩ => show win0_1.index t (1 : Fin 2) * 768 + 1 * k.val = k.val; rw [e.2.2.2.1]; omega

/-- Window 2 holds, at every point, its whole one-row array: the vector argument as one row. -/
theorem iblk2_apply (c : Dev nD) (t : Fin cfg0.N) (u : Fin 1) (k : Fin 768) :
    iblk m c 2 t (ix2 u k) = (m ((c : Thread nD τ).loc main_arg2)) (ix1 k) := by
  show V m c main_v0 (((cfg0.win 2).blk t).view.emb (ix2 u k)) = _
  rw [V_main_v0]
  refine Eq.trans (congrArg _ (funext fun a => Fin.ext ?_)) (shapeCast_a_1a_apply _ shapeCasts_S768_S1x768 (0 : Fin 1) k)
  match a with
  | ⟨0, _⟩ => show win0_2.index t (0 : Fin 2) * 1 + 1 * u.val = 0; rw [(idx_res t 0).1]; omega
  | ⟨1, _⟩ => show win0_2.index t (1 : Fin 2) * 768 + 1 * k.val = k.val; rw [(idx_res t 1).1]; omega

/-- Window 3 holds, at every point, its whole one-row array: the vector argument as one row. -/
theorem iblk3_apply (c : Dev nD) (t : Fin cfg0.N) (u : Fin 1) (k : Fin 768) :
    iblk m c 3 t (ix2 u k) = (m ((c : Thread nD τ).loc main_arg3)) (ix1 k) := by
  show V m c main_v1 (((cfg0.win 3).blk t).view.emb (ix2 u k)) = _
  rw [V_main_v1]
  refine Eq.trans (congrArg _ (funext fun a => Fin.ext ?_)) (shapeCast_a_1a_apply _ shapeCasts_S768_S1x768 (0 : Fin 1) k)
  match a with
  | ⟨0, _⟩ => show win0_3.index t (0 : Fin 2) * 1 + 1 * u.val = 0; rw [(idx_res t 0).2.1]; omega
  | ⟨1, _⟩ => show win0_3.index t (1 : Fin 2) * 768 + 1 * k.val = k.val; rw [(idx_res t 1).2.1]; omega

/-- Window 4 holds, at every point, its whole array: the weights (narrowed, which changes no exact value). -/
theorem iblk4_apply (c : Dev nD) (t : Fin cfg0.N) (a : Fin 768) (b : Fin 768) :
    iblk m c 4 t (ix2 a b) = (m ((c : Thread nD τ).loc main_arg4)) (ix2 a b) := by
  show V m c main_v6 (((cfg0.win 4).blk t).view.emb (ix2 a b)) = _
  rw [V_main_v6]
  show (m ((c : Thread nD τ).loc main_arg4)) (((cfg0.win 4).blk t).view.emb (ix2 a b)) = _
  refine congrArg (m ((c : Thread nD τ).loc main_arg4)) (funext fun ax => Fin.ext ?_)
  match ax with
  | ⟨0, _⟩ => show win0_4.index t (0 : Fin 2) * 768 + 1 * a.val = a.val; rw [(idx_res t 0).2.2.1]; omega
  | ⟨1, _⟩ => show win0_4.index t (1 : Fin 2) * 768 + 1 * b.val = b.val; rw [(idx_res t 1).2.2.1]; omega

/-- Window 5 holds, at every point, its whole one-row array: the vector argument as one row. -/
theorem iblk5_apply (c : Dev nD) (t : Fin cfg0.N) (u : Fin 1) (k : Fin 768) :
    iblk m c 5 t (ix2 u k) = (m ((c : Thread nD τ).loc main_arg5)) (ix1 k) := by
  show V m c main_v2 (((cfg0.win 5).blk t).view.emb (ix2 u k)) = _
  rw [V_main_v2]
  refine Eq.trans (congrArg _ (funext fun a => Fin.ext ?_)) (shapeCast_a_1a_apply _ shapeCasts_S768_S1x768 (0 : Fin 1) k)
  match a with
  | ⟨0, _⟩ => show win0_5.index t (0 : Fin 2) * 1 + 1 * u.val = 0; rw [(idx_res t 0).2.2.2.1]; omega
  | ⟨1, _⟩ => show win0_5.index t (1 : Fin 2) * 768 + 1 * k.val = k.val; rw [(idx_res t 1).2.2.2.1]; omega

/-- Window 6 holds, at every point, its whole one-row array: the vector argument as one row. -/
theorem iblk6_apply (c : Dev nD) (t : Fin cfg0.N) (u : Fin 1) (k : Fin 768) :
    iblk m c 6 t (ix2 u k) = (m ((c : Thread nD τ).loc main_arg6)) (ix1 k) := by
  show V m c main_v3 (((cfg0.win 6).blk t).view.emb (ix2 u k)) = _
  rw [V_main_v3]
  refine Eq.trans (congrArg _ (funext fun a => Fin.ext ?_)) (shapeCast_a_1a_apply _ shapeCasts_S768_S1x768 (0 : Fin 1) k)
  match a with
  | ⟨0, _⟩ => show win0_6.index t (0 : Fin 2) * 1 + 1 * u.val = 0; rw [(idx_res t 0).2.2.2.2.1]; omega
  | ⟨1, _⟩ => show win0_6.index t (1 : Fin 2) * 768 + 1 * k.val = k.val; rw [(idx_res t 1).2.2.2.2.1]; omega

/-- Window 7 holds, at every point, its whole one-row array: the vector argument as one row. -/
theorem iblk7_apply (c : Dev nD) (t : Fin cfg0.N) (u : Fin 1) (k : Fin 768) :
    iblk m c 7 t (ix2 u k) = (m ((c : Thread nD τ).loc main_arg7)) (ix1 k) := by
  show V m c main_v4 (((cfg0.win 7).blk t).view.emb (ix2 u k)) = _
  rw [V_main_v4]
  refine Eq.trans (congrArg _ (funext fun a => Fin.ext ?_)) (shapeCast_a_1a_apply _ shapeCasts_S768_S1x768 (0 : Fin 1) k)
  match a with
  | ⟨0, _⟩ => show win0_7.index t (0 : Fin 2) * 1 + 1 * u.val = 0; rw [(idx_res t 0).2.2.2.2.2.1]; omega
  | ⟨1, _⟩ => show win0_7.index t (1 : Fin 2) * 768 + 1 * k.val = k.val; rw [(idx_res t 1).2.2.2.2.2.1]; omega

/-- Window 8 holds, at every point, its whole array: the weights (narrowed, which changes no exact value). -/
theorem iblk8_apply (c : Dev nD) (t : Fin cfg0.N) (a : Fin 768) (b : Fin 512) :
    iblk m c 8 t (ix2 a b) = (m ((c : Thread nD τ).loc main_arg8)) (ix2 a b) := by
  show V m c main_v7 (((cfg0.win 8).blk t).view.emb (ix2 a b)) = _
  rw [V_main_v7]
  show (m ((c : Thread nD τ).loc main_arg8)) (((cfg0.win 8).blk t).view.emb (ix2 a b)) = _
  refine congrArg (m ((c : Thread nD τ).loc main_arg8)) (funext fun ax => Fin.ext ?_)
  match ax with
  | ⟨0, _⟩ => show win0_8.index t (0 : Fin 2) * 768 + 1 * a.val = a.val; rw [(idx_res t 0).2.2.2.2.2.2.1]; omega
  | ⟨1, _⟩ => show win0_8.index t (1 : Fin 2) * 512 + 1 * b.val = b.val; rw [(idx_res t 1).2.2.2.2.2.2.1]; omega

/-- Window 9 holds, at every point, its whole one-row array: the vector argument as one row. -/
theorem iblk9_apply (c : Dev nD) (t : Fin cfg0.N) (u : Fin 1) (k : Fin 512) :
    iblk m c 9 t (ix2 u k) = (m ((c : Thread nD τ).loc main_arg9)) (ix1 k) := by
  show V m c main_v5 (((cfg0.win 9).blk t).view.emb (ix2 u k)) = _
  rw [V_main_v5]
  refine Eq.trans (congrArg _ (funext fun a => Fin.ext ?_)) (shapeCast_a_1a_apply _ shapeCasts_S512_S1x512 (0 : Fin 1) k)
  match a with
  | ⟨0, _⟩ => show win0_9.index t (0 : Fin 2) * 1 + 1 * u.val = 0; rw [(idx_res t 0).2.2.2.2.2.2.2]; omega
  | ⟨1, _⟩ => show win0_9.index t (1 : Fin 2) * 512 + 1 * k.val = k.val; rw [(idx_res t 1).2.2.2.2.2.2.2]; omega

/-! ## A block's entries as the row function -/

/-- Entry `(p, q)` of an output block, from the input block and the parameter blocks. -/
def blockEntry {D : ℕ} (x : (⟨2, ![1024, 768]⟩ : Shape).Idx → EReal) (g be : (⟨2, ![1, 768]⟩ : Shape).Idx → EReal)
    (w : (⟨2, ![768, D]⟩ : Shape).Idx → EReal) (bi : (⟨2, ![1, D]⟩ : Shape).Idx → EReal) (p : Fin 1024) (q : Fin D) : EReal :=
  rowOut (varOnePass (fun k => x (ix2 p k))) (fun k => x (ix2 p k)) (fun k => g (ix2 (0 : Fin 1) k))
    (fun k => be (ix2 (0 : Fin 1) k)) (fun k => w (ix2 k q)) (bi (ix2 (0 : Fin 1) q))

theorem ctx_block_eq (x : FVec Ideal S1024x768 .f32) (g be : FVec Ideal S1x768 .f32) (w : FVec Ideal S768x768 .bf16)
    (bi : FVec Ideal S1x768 .f32) :
    k0_pay5 (F := Ideal) (k0_pay2 (F := Ideal) x g be w bi) (k0_pay3 (F := Ideal) x g be w bi) (k0_pay4 (F := Ideal))
      = fun y : S1024x768.Idx => blockEntry x g be w bi ⟨(y 0).val, idx2_lt0 y⟩ ⟨(y 1).val, idx2_lt1 y⟩ := by
  funext y
  obtain ⟨p, q, rfl⟩ : ∃ (p : Fin 1024) (q : Fin 768), y = ix2 p q := ⟨y 0, y 1, eq_ix2 y⟩
  exact ctx_entry x g be w bi p q

theorem vec_block_eq (x : FVec Ideal S1024x768 .f32) (g be : FVec Ideal S1x768 .f32) (w : FVec Ideal S768x512 .bf16)
    (bi : FVec Ideal S1x512 .f32) :
    k0_pay1 (F := Ideal) (k0_pay6 (F := Ideal) x g be w bi)
      = fun y : S1024x512.Idx => blockEntry x g be w bi ⟨(y 0).val, idx2_lt0 y⟩ ⟨(y 1).val, idx2_lt1 y⟩ := by
  funext y
  obtain ⟨p, q, rfl⟩ : ∃ (p : Fin 1024) (q : Fin 512), y = ix2 p q := ⟨y 0, y 1, eq_ix2 y⟩
  exact vec_entry x g be w bi p q

/-! ## The context branch's output array -/

/-- Entry `(p, q)` of the output block at point `t` is entry `(1024 t + p, q)` of the one-pass result array. -/
theorem block10_entry (c : Dev nD) (t : Fin cfg0.N) (p : Fin 1024) (q : Fin 768) :
    blockEntry (iblk m c 0 t) (iblk m c 2 t) (iblk m c 3 t) (iblk m c 4 t) (iblk m c 5 t) p q
      = entry varOnePass (m ((c : Thread nD τ).loc main_arg1)) (m ((c : Thread nD τ).loc main_arg2)) (m ((c : Thread nD τ).loc main_arg3)) (m ((c : Thread nD τ).loc main_arg4)) (m ((c : Thread nD τ).loc main_arg5))
          (⟨t.val * 1024 + p.val, by have := ht64 t; have := p.isLt; omega⟩ : Fin 65536) q := by
  unfold blockEntry entry
  simp only [iblk0_apply, iblk2_apply, iblk3_apply, iblk4_apply, iblk5_apply]

/-- WHAT POINT `t` WRITES BACK to output window 10 is block `t` of the one-pass result array. -/
theorem flushed10_eq (c : Dev nD) (t : Fin cfg0.N) :
    (dats m 0 c).flushed 10 t = ((cfg0.win 10).blk t).view.read (Elt Ideal)
      (mixOut varOnePass (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed10]
  unfold out0_10
  rw [View.canon_unit_zero hz]
  simp only [View.ld_unit_zero (S := S1024x768) hz, View.ld_unit_zero (S := S1x768) hz, View.ld_unit_zero (S := S768x768) hz]
  rw [ctx_block_eq]
  funext y
  have e := idx_rows t
  have h0 : ((((cfg0.win 10).blk t).view.emb y) 0).val = t.val * 1024 + (y 0).val := by
    show win0_10.index t (0 : Fin 2) * 1024 + 1 * (y 0).val = _; rw [e.2.2.2.2.1]; omega
  have h1 : ((((cfg0.win 10).blk t).view.emb y) 1).val = (y 1).val := by
    show win0_10.index t (1 : Fin 2) * 768 + 1 * (y 1).val = _; rw [e.2.2.2.2.2.1]; omega
  show blockEntry (iblk m c 0 t) (iblk m c 2 t) (iblk m c 3 t) (iblk m c 4 t) (iblk m c 5 t) ⟨(y 0).val, _⟩ ⟨(y 1).val, _⟩
      = entry varOnePass (m ((c : Thread nD τ).loc main_arg1)) (m ((c : Thread nD τ).loc main_arg2)) (m ((c : Thread nD τ).loc main_arg3)) (m ((c : Thread nD τ).loc main_arg4)) (m ((c : Thread nD τ).loc main_arg5)) ⟨_, _⟩ ⟨_, _⟩
  exact (block10_entry m c t _ _).trans (entry_of_val_eq _ _ _ _ _ _ h0.symm h1.symm)

/-- An index of the array is in point `t`'s block iff each coordinate is in the block's range on its axis. -/
theorem mem_blk10 (t : Fin cfg0.N) (i : S65536x768.Idx) :
    i ∈ ((cfg0.win 10).blk t).view.set ↔ ∀ a : Fin 2, win0_10.index t a * S1024x768.size a ≤ (i a).val ∧ (i a).val < win0_10.index t a * S1024x768.size a + S1024x768.size a := by
  show i ∈ ((View.whole main_v8_0).slice (win0_10.rect t)).set ↔ _
  rw [View.set_slice_whole, Rect.mem_set_unit]
  exact Iff.rfl

/-- Every index of the array lies in some point's block: row `r` in the block of point `r / 1024`. -/
theorem cover10 (i : S65536x768.Idx) :
    ∃ t : Fin cfg0.N, (cfg0.win 10).flush t = true ∧ i ∈ ((cfg0.win 10).blk t).view.set := by
  have hi0 : (i 0).val < 65536 := (i 0).isLt
  have hi1 : (i 1).val < 768 := (i 1).isLt
  have hN : cfg0.N = 64 := N_0
  refine ⟨⟨(i 0).val / 1024, by rw [hN]; omega⟩, flush0_10 _, ?_⟩
  have e := idx_rows ⟨(i 0).val / 1024, by rw [hN]; omega⟩
  rw [mem_blk10]
  intro a
  match a with
  | ⟨0, _⟩ =>
    show win0_10.index _ (0 : Fin 2) * 1024 ≤ (i 0).val ∧ (i 0).val < win0_10.index _ (0 : Fin 2) * 1024 + 1024
    rw [e.2.2.2.2.1]
    show (i 0).val / 1024 * 1024 ≤ (i 0).val ∧ (i 0).val < (i 0).val / 1024 * 1024 + 1024
    omega
  | ⟨1, _⟩ =>
    show win0_10.index _ (1 : Fin 2) * 768 ≤ (i 1).val ∧ (i 1).val < win0_10.index _ (1 : Fin 2) * 768 + 768
    rw [e.2.2.2.2.2.1]
    omega

/-- THE ARRAY after the run: the one-pass result array of the argument arrays. -/
theorem final10 (c : Dev nD) :
    (dats m 0 c).arrAt 10 cfg0.N = mixOut varOnePass (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 10 _ (fun t _ => flushed10_eq m c t) cover10

/-! ## The vector branch's output array -/

/-- Entry `(p, q)` of the output block at point `t` is entry `(1024 t + p, q)` of the one-pass result array. -/
theorem block11_entry (c : Dev nD) (t : Fin cfg0.N) (p : Fin 1024) (q : Fin 512) :
    blockEntry (iblk m c 1 t) (iblk m c 6 t) (iblk m c 7 t) (iblk m c 8 t) (iblk m c 9 t) p q
      = entry varOnePass (m ((c : Thread nD τ).loc main_arg0)) (m ((c : Thread nD τ).loc main_arg6)) (m ((c : Thread nD τ).loc main_arg7)) (m ((c : Thread nD τ).loc main_arg8)) (m ((c : Thread nD τ).loc main_arg9))
          (⟨t.val * 1024 + p.val, by have := ht64 t; have := p.isLt; omega⟩ : Fin 65536) q := by
  unfold blockEntry entry
  simp only [iblk1_apply, iblk6_apply, iblk7_apply, iblk8_apply, iblk9_apply]

/-- WHAT POINT `t` WRITES BACK to output window 11 is block `t` of the one-pass result array. -/
theorem flushed11_eq (c : Dev nD) (t : Fin cfg0.N) :
    (dats m 0 c).flushed 11 t = ((cfg0.win 11).blk t).view.read (Elt Ideal)
      (mixOut varOnePass (m ((c : Thread nD τ).loc main_arg0)) (m ((c : Thread nD τ).loc main_arg6)) (m ((c : Thread nD τ).loc main_arg7)) (m ((c : Thread nD τ).loc main_arg8)) (m ((c : Thread nD τ).loc main_arg9))) := by
  rw [Value.flushed11]
  unfold out0_11
  rw [View.canon_unit_zero hz]
  simp only [View.ld_unit_zero (S := S1024x768) hz, View.ld_unit_zero (S := S1x768) hz, View.ld_unit_zero (S := S768x512) hz, View.ld_unit_zero (S := S1x512) hz]
  rw [vec_block_eq]
  funext y
  have e := idx_rows t
  have h0 : ((((cfg0.win 11).blk t).view.emb y) 0).val = t.val * 1024 + (y 0).val := by
    show win0_11.index t (0 : Fin 2) * 1024 + 1 * (y 0).val = _; rw [e.2.2.2.2.2.2.1]; omega
  have h1 : ((((cfg0.win 11).blk t).view.emb y) 1).val = (y 1).val := by
    show win0_11.index t (1 : Fin 2) * 512 + 1 * (y 1).val = _; rw [e.2.2.2.2.2.2.2]; omega
  show blockEntry (iblk m c 1 t) (iblk m c 6 t) (iblk m c 7 t) (iblk m c 8 t) (iblk m c 9 t) ⟨(y 0).val, _⟩ ⟨(y 1).val, _⟩
      = entry varOnePass (m ((c : Thread nD τ).loc main_arg0)) (m ((c : Thread nD τ).loc main_arg6)) (m ((c : Thread nD τ).loc main_arg7)) (m ((c : Thread nD τ).loc main_arg8)) (m ((c : Thread nD τ).loc main_arg9)) ⟨_, _⟩ ⟨_, _⟩
  exact (block11_entry m c t _ _).trans (entry_of_val_eq _ _ _ _ _ _ h0.symm h1.symm)

/-- An index of the array is in point `t`'s block iff each coordinate is in the block's range on its axis. -/
theorem mem_blk11 (t : Fin cfg0.N) (i : S65536x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v8_1).slice (win0_11.rect t)).set ↔ _
  rw [View.set_slice_whole, Rect.mem_set_unit]
  exact Iff.rfl

/-- Every index of the array lies in some point's block: row `r` in the block of point `r / 1024`. -/
theorem cover11 (i : S65536x512.Idx) :
    ∃ t : Fin cfg0.N, (cfg0.win 11).flush t = true ∧ i ∈ ((cfg0.win 11).blk t).view.set := by
  have hi0 : (i 0).val < 65536 := (i 0).isLt
  have hi1 : (i 1).val < 512 := (i 1).isLt
  have hN : cfg0.N = 64 := N_0
  refine ⟨⟨(i 0).val / 1024, by rw [hN]; omega⟩, flush0_11 _, ?_⟩
  have e := idx_rows ⟨(i 0).val / 1024, by rw [hN]; omega⟩
  rw [mem_blk11]
  intro a
  match a with
  | ⟨0, _⟩ =>
    show win0_11.index _ (0 : Fin 2) * 1024 ≤ (i 0).val ∧ (i 0).val < win0_11.index _ (0 : Fin 2) * 1024 + 1024
    rw [e.2.2.2.2.2.2.1]
    show (i 0).val / 1024 * 1024 ≤ (i 0).val ∧ (i 0).val < (i 0).val / 1024 * 1024 + 1024
    omega
  | ⟨1, _⟩ =>
    show win0_11.index _ (1 : Fin 2) * 512 ≤ (i 1).val ∧ (i 1).val < win0_11.index _ (1 : Fin 2) * 512 + 512
    rw [e.2.2.2.2.2.2.2]
    omega

/-- THE ARRAY after the run: the one-pass result array of the argument arrays. -/
theorem final11 (c : Dev nD) :
    (dats m 0 c).arrAt 11 cfg0.N = mixOut varOnePass (m ((c : Thread nD τ).loc main_arg0)) (m ((c : Thread nD τ).loc main_arg6)) (m ((c : Thread nD τ).loc main_arg7)) (m ((c : Thread nD τ).loc main_arg8)) (m ((c : Thread nD τ).loc main_arg9)) :=
  (dats m 0 c).arrAt_eq_of_cover 11 _ (fun t _ => flushed11_eq m c t) cover11

/-! ## The run -/

/-- Every weakly fair execution of the kernel's program terminates with the two result arrays at the one-pass
    result arrays of the arguments, the arguments unchanged. -/
theorem run : θ_run defs (onTc (τ := τ) (main (F := Ideal))) ⟨m, fun _ => 0, ρ⟩ fun r => ∀ c : Dev nD,
      r.2.mem ((c : Thread nD τ).loc main_v8_0)
          = mixOut varOnePass (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v8_1)
          = mixOut varOnePass (m ((c : Thread nD τ).loc main_arg0)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Cert.KernelIdeal.Value.run_blocks m ρ)

end Cert.KernelIdeal.ArrayValue

end
-- ==== Proof.RefOps.lean ====
/-
  The reference program's host operations as lists: @main's two printed windows, each outlined helper's lines
  written at its call over that call's own buffers (the variance helper once per branch, with the guard's
  `where` inside it; the rectifier's `where` once per branch). 104 + 6 operations.
-/
import proofs.«165396_j1288490189005_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first window: the context branch whole, the vector branch up to its bias add. -/
abbrev ops_part0 : List (HloOp τ sig (Elt F)) :=
  [ nullary main_cst (constant S_ .f32 0x00000000#32),
    binary main_arg1 main_cst main_v0 ((fun x v => Host.reduceAdd x v reducesTo_S65536x768_S65536_d1 h_S_) : (⟨S65536x768, .f32⟩ : BufTy).Contents (Elt F) → (⟨S_, .f32⟩ : BufTy).Contents (Elt F) → (⟨S65536, .f32⟩ : BufTy).Contents (Elt F)),
    unary main_v0 main_v1 (broadcastInDim S65536x1 ![0] bcast_S65536_S65536x1_0 : (⟨S65536, .f32⟩ : BufTy).Contents (Elt F) → (⟨S65536x1, .f32⟩ : BufTy).Contents (Elt F)),
    nullary main_cst_0 (constant S_ .f32 0x44400000#32),
    unary main_cst_0 main_v2 (broadcastInDim S65536x1 ![] bcast_S_S65536x1 : (⟨S_, .f32⟩ : BufTy).Contents (Elt F) → (⟨S65536x1, .f32⟩ : BufTy).Contents (Elt F)),
    binary main_v1 main_v2 main_v3 (Host.divf : (⟨S65536x1, .f32⟩ : BufTy).Contents (Elt F) → (⟨S65536x1, .f32⟩ : BufTy).Contents (Elt F) → (⟨S65536x1, .f32⟩ : BufTy).Contents (Elt F)),
    nullary main_c (constantI S_ 32 0#32),
    TRef.nullary main_call0.cst (constant S_ .f32 0x00000000#32),
    TRef.binary (.of main_arg1) main_call0.cst main_call0.v0 (fun x v => Host.reduceAdd x v reducesTo_S65536x768_S65536_d1 h_S_),
    TRef.unary main_call0.v0 main_call0.v1 (broadcastInDim S65536x1 ![0] bcast_S65536_S65536x1_0),
    TRef.nullary main_call0.cst_0 (constant S_ .f32 0x44400000#32),
    TRef.unary main_call0.cst_0 main_call0.v2 (broadcastInDim S65536x1 ![] bcast_S_S65536x1),
    TRef.binary main_call0.v1 main_call0.v2 main_call0.v3 Host.divf,
    TRef.unary main_call0.v3 main_call0.v4 (broadcastInDim S65536x768 ![0, 1] bcast_S65536x1_S65536x768_0_1),
    TRef.binary (.of main_arg1) main_call0.v4 main_call0.v5 subf,
    TRef.binary main_call0.v5 main_call0.v5 main_call0.v6 mulf,
    TRef.unary (.of main_c) main_call0.v7 (sitofp .f32),
    TRef.nullary main_call0.cst_1 (constant S_ .f32 0x44400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x768_S65536_d1 h_S_),
    TRef.unary main_call0.v9 main_call0.v10 (broadcastInDim S65536x1 ![0] bcast_S65536_S65536x1_0),
    TRef.unary main_call0.v8 main_call0.v11 (broadcastInDim S65536x1 ![] bcast_S_S65536x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S65536x1 ![] bcast_S_S65536x1),
    TRef.ternary main_call0.v13 main_call0.v12 main_call0.call0.v1 main_call0.call0.v2 (fun p a b => select (broadcastInDim S65536x1 ![] bcast_S_S65536x1 p) a b),
    unary main_v3 main_v5 (broadcastInDim S65536x768 ![0, 1] bcast_S65536x1_S65536x768_0_1 : (⟨S65536x1, .f32⟩ : BufTy).Contents (Elt F) → (⟨S65536x768, .f32⟩ : BufTy).Contents (Elt F)),
    binary main_arg1 main_v5 main_v6 (subf : (⟨S65536x768, .f32⟩ : BufTy).Contents (Elt F) → (⟨S65536x768, .f32⟩ : BufTy).Contents (Elt F) → (⟨S65536x768, .f32⟩ : BufTy).Contents (Elt F)),
    nullary main_cst_1 (constant S_ .f32 0x3727C5AC#32),
    unary main_cst_1 main_v7 (broadcastInDim S65536x1 ![] bcast_S_S65536x1 : (⟨S_, .f32⟩ : BufTy).Contents (Elt F) → (⟨S65536x1, .f32⟩ : BufTy).Contents (Elt F)),
    binary main_v4 main_v7 main_v8 (addf : (⟨S65536x1, .f32⟩ : BufTy).Contents (Elt F) → (⟨S65536x1, .f32⟩ : BufTy).Contents (Elt F) → (⟨S65536x1, .f32⟩ : BufTy).Contents (Elt F)),
    unary main_v8 main_v9 (Host.rsqrt : (⟨S65536x1, .f32⟩ : BufTy).Contents (Elt F) → (⟨S65536x1, .f32⟩ : BufTy).Contents (Elt F)),
    unary main_v9 main_v10 (broadcastInDim S65536x768 ![0, 1] bcast_S65536x1_S65536x768_0_1 : (⟨S65536x1, .f32⟩ : BufTy).Contents (Elt F) → (⟨S65536x768, .f32⟩ : BufTy).Contents (Elt F)),
    binary main_v6 main_v10 main_v11 (mulf : (⟨S65536x768, .f32⟩ : BufTy).Contents (Elt F) → (⟨S65536x768, .f32⟩ : BufTy).Contents (Elt F) → (⟨S65536x768, .f32⟩ : BufTy).Contents (Elt F)),
    unary main_arg2 main_v12 (broadcastInDim S1x768 ![1] bcast_S768_S1x768_1 : (⟨S768, .f32⟩ : BufTy).Contents (Elt F) → (⟨S1x768, .f32⟩ : BufTy).Contents (Elt F)),
    unary main_v12 main_v13 (broadcastInDim S65536x768 ![0, 1] bcast_S1x768_S65536x768_0_1 : (⟨S1x768, .f32⟩ : BufTy).Contents (Elt F) → (⟨S65536x768, .f32⟩ : BufTy).Contents (Elt F)),
    binary main_v11 main_v13 main_v14 (mulf : (⟨S65536x768, .f32⟩ : BufTy).Contents (Elt F) → (⟨S65536x768, .f32⟩ : BufTy).Contents (Elt F) → (⟨S65536x768, .f32⟩ : BufTy).Contents (Elt F)),
    unary main_arg3 main_v15 (broadcastInDim S1x768 ![1] bcast_S768_S1x768_1 : (⟨S768, .f32⟩ : BufTy).Contents (Elt F) → (⟨S1x768, .f32⟩ : BufTy).Contents (Elt F)),
    unary main_v15 main_v16 (broadcastInDim S65536x768 ![0, 1] bcast_S1x768_S65536x768_0_1 : (⟨S1x768, .f32⟩ : BufTy).Contents (Elt F) → (⟨S65536x768, .f32⟩ : BufTy).Contents (Elt F)),
    binary main_v14 main_v16 main_v17 (addf : (⟨S65536x768, .f32⟩ : BufTy).Contents (Elt F) → (⟨S65536x768, .f32⟩ : BufTy).Contents (Elt F) → (⟨S65536x768, .f32⟩ : BufTy).Contents (Elt F)),
    binary main_v17 main_arg4 main_v18 ((fun l r => Host.dotGeneral dot_S65536x768_S768x768_S65536x768_1_0_0_1_n_n none l r) : (⟨S65536x768, .f32⟩ : BufTy).Contents (Elt F) → (⟨S768x768, .f32⟩ : BufTy).Contents (Elt F) → (⟨S65536x768, .f32⟩ : BufTy).Contents (Elt F)),
    unary main_arg5 main_v19 (broadcastInDim S1x768 ![1] bcast_S768_S1x768_1 : (⟨S768, .f32⟩ : BufTy).Contents (Elt F) → (⟨S1x768, .f32⟩ : BufTy).Contents (Elt F)),
    unary main_v19 main_v20 (broadcastInDim S65536x768 ![0, 1] bcast_S1x768_S65536x768_0_1 : (⟨S1x768, .f32⟩ : BufTy).Contents (Elt F) → (⟨S65536x768, .f32⟩ : BufTy).Contents (Elt F)),
    binary main_v18 main_v20 main_v21 (addf : (⟨S65536x768, .f32⟩ : BufTy).Contents (Elt F) → (⟨S65536x768, .f32⟩ : BufTy).Contents (Elt F) → (⟨S65536x768, .f32⟩ : BufTy).Contents (Elt F)),
    nullary main_cst_2 (constant S_ .f32 0x00000000#32),
    unary main_cst_2 main_v22 (broadcastInDim S65536x768 ![] bcast_S_S65536x768 : (⟨S_, .f32⟩ : BufTy).Contents (Elt F) → (⟨S65536x768, .f32⟩ : BufTy).Contents (Elt F)),
    binary main_v21 main_v22 main_v23 (cmpf .oge : (⟨S65536x768, .f32⟩ : BufTy).Contents (Elt F) → (⟨S65536x768, .f32⟩ : BufTy).Contents (Elt F) → (⟨S65536x768, .i1⟩ : BufTy).Contents (Elt F)),
    nullary main_cst_3 (constant S_ .f32 0x3C23D70A#32),
    unary main_cst_3 main_v24 (broadcastInDim S65536x768 ![] bcast_S_S65536x768 : (⟨S_, .f32⟩ : BufTy).Contents (Elt F) → (⟨S65536x768, .f32⟩ : BufTy).Contents (Elt F)),
    binary main_v24 main_v21 main_v25 (mulf : (⟨S65536x768, .f32⟩ : BufTy).Contents (Elt F) → (⟨S65536x768, .f32⟩ : BufTy).Contents (Elt F) → (⟨S65536x768, .f32⟩ : BufTy).Contents (Elt F)),
    TRef.ternary (.of main_v23) (.of main_v21) (.of main_v25) main_call1.v0 select,
    nullary main_cst_4 (constant S_ .f32 0x00000000#32),
    binary main_arg0 main_cst_4 main_v27 ((fun x v => Host.reduceAdd x v reducesTo_S65536x768_S65536_d1 h_S_) : (⟨S65536x768, .f32⟩ : BufTy).Contents (Elt F) → (⟨S_, .f32⟩ : BufTy).Contents (Elt F) → (⟨S65536, .f32⟩ : BufTy).Contents (Elt F)),
    unary main_v27 main_v28 (broadcastInDim S65536x1 ![0] bcast_S65536_S65536x1_0 : (⟨S65536, .f32⟩ : BufTy).Contents (Elt F) → (⟨S65536x1, .f32⟩ : BufTy).Contents (Elt F)),
    nullary main_cst_5 (constant S_ .f32 0x44400000#32),
    unary main_cst_5 main_v29 (broadcastInDim S65536x1 ![] bcast_S_S65536x1 : (⟨S_, .f32⟩ : BufTy).Contents (Elt F) → (⟨S65536x1, .f32⟩ : BufTy).Contents (Elt F)),
    binary main_v28 main_v29 main_v30 (Host.divf : (⟨S65536x1, .f32⟩ : BufTy).Contents (Elt F) → (⟨S65536x1, .f32⟩ : BufTy).Contents (Elt F) → (⟨S65536x1, .f32⟩ : BufTy).Contents (Elt F)),
    nullary main_c_6 (constantI S_ 32 0#32),
    TRef.nullary main_call2.cst (constant S_ .f32 0x00000000#32),
    TRef.binary (.of main_arg0) main_call2.cst main_call2.v0 (fun x v => Host.reduceAdd x v reducesTo_S65536x768_S65536_d1 h_S_),
    TRef.unary main_call2.v0 main_call2.v1 (broadcastInDim S65536x1 ![0] bcast_S65536_S65536x1_0),
    TRef.nullary main_call2.cst_0 (constant S_ .f32 0x44400000#32),
    TRef.unary main_call2.cst_0 main_call2.v2 (broadcastInDim S65536x1 ![] bcast_S_S65536x1),
    TRef.binary main_call2.v1 main_call2.v2 main_call2.v3 Host.divf,
    TRef.unary main_call2.v3 main_call2.v4 (broadcastInDim S65536x768 ![0, 1] bcast_S65536x1_S65536x768_0_1),
    TRef.binary (.of main_arg0) main_call2.v4 main_call2.v5 subf,
    TRef.binary main_call2.v5 main_call2.v5 main_call2.v6 mulf,
    TRef.unary (.of main_c_6) main_call2.v7 (sitofp .f32),
    TRef.nullary main_call2.cst_1 (constant S_ .f32 0x44400000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S65536x768_S65536_d1 h_S_),
    TRef.unary main_call2.v9 main_call2.v10 (broadcastInDim S65536x1 ![0] bcast_S65536_S65536x1_0),
    TRef.unary main_call2.v8 main_call2.v11 (broadcastInDim S65536x1 ![] bcast_S_S65536x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S65536x1 ![] bcast_S_S65536x1),
    TRef.ternary main_call2.v13 main_call2.v12 main_call2.call0.v1 main_call2.call0.v2 (fun p a b => select (broadcastInDim S65536x1 ![] bcast_S_S65536x1 p) a b),
    unary main_v30 main_v32 (broadcastInDim S65536x768 ![0, 1] bcast_S65536x1_S65536x768_0_1 : (⟨S65536x1, .f32⟩ : BufTy).Contents (Elt F) → (⟨S65536x768, .f32⟩ : BufTy).Contents (Elt F)),
    binary main_arg0 main_v32 main_v33 (subf : (⟨S65536x768, .f32⟩ : BufTy).Contents (Elt F) → (⟨S65536x768, .f32⟩ : BufTy).Contents (Elt F) → (⟨S65536x768, .f32⟩ : BufTy).Contents (Elt F)),
    nullary main_cst_7 (constant S_ .f32 0x3727C5AC#32),
    unary main_cst_7 main_v34 (broadcastInDim S65536x1 ![] bcast_S_S65536x1 : (⟨S_, .f32⟩ : BufTy).Contents (Elt F) → (⟨S65536x1, .f32⟩ : BufTy).Contents (Elt F)),
    binary main_v31 main_v34 main_v35 (addf : (⟨S65536x1, .f32⟩ : BufTy).Contents (Elt F) → (⟨S65536x1, .f32⟩ : BufTy).Contents (Elt F) → (⟨S65536x1, .f32⟩ : BufTy).Contents (Elt F)),
    unary main_v35 main_v36 (Host.rsqrt : (⟨S65536x1, .f32⟩ : BufTy).Contents (Elt F) → (⟨S65536x1, .f32⟩ : BufTy).Contents (Elt F)),
    unary main_v36 main_v37 (broadcastInDim S65536x768 ![0, 1] bcast_S65536x1_S65536x768_0_1 : (⟨S65536x1, .f32⟩ : BufTy).Contents (Elt F) → (⟨S65536x768, .f32⟩ : BufTy).Contents (Elt F)),
    binary main_v33 main_v37 main_v38 (mulf : (⟨S65536x768, .f32⟩ : BufTy).Contents (Elt F) → (⟨S65536x768, .f32⟩ : BufTy).Contents (Elt F) → (⟨S65536x768, .f32⟩ : BufTy).Contents (Elt F)),
    unary main_arg6 main_v39 (broadcastInDim S1x768 ![1] bcast_S768_S1x768_1 : (⟨S768, .f32⟩ : BufTy).Contents (Elt F) → (⟨S1x768, .f32⟩ : BufTy).Contents (Elt F)),
    unary main_v39 main_v40 (broadcastInDim S65536x768 ![0, 1] bcast_S1x768_S65536x768_0_1 : (⟨S1x768, .f32⟩ : BufTy).Contents (Elt F) → (⟨S65536x768, .f32⟩ : BufTy).Contents (Elt F)),
    binary main_v38 main_v40 main_v41 (mulf : (⟨S65536x768, .f32⟩ : BufTy).Contents (Elt F) → (⟨S65536x768, .f32⟩ : BufTy).Contents (Elt F) → (⟨S65536x768, .f32⟩ : BufTy).Contents (Elt F)),
    unary main_arg7 main_v42 (broadcastInDim S1x768 ![1] bcast_S768_S1x768_1 : (⟨S768, .f32⟩ : BufTy).Contents (Elt F) → (⟨S1x768, .f32⟩ : BufTy).Contents (Elt F)),
    unary main_v42 main_v43 (broadcastInDim S65536x768 ![0, 1] bcast_S1x768_S65536x768_0_1 : (⟨S1x768, .f32⟩ : BufTy).Contents (Elt F) → (⟨S65536x768, .f32⟩ : BufTy).Contents (Elt F)),
    binary main_v41 main_v43 main_v44 (addf : (⟨S65536x768, .f32⟩ : BufTy).Contents (Elt F) → (⟨S65536x768, .f32⟩ : BufTy).Contents (Elt F) → (⟨S65536x768, .f32⟩ : BufTy).Contents (Elt F)),
    binary main_v44 main_arg8 main_v45 ((fun l r => Host.dotGeneral dot_S65536x768_S768x512_S65536x512_1_0_0_1_n_n none l r) : (⟨S65536x768, .f32⟩ : BufTy).Contents (Elt F) → (⟨S768x512, .f32⟩ : BufTy).Contents (Elt F) → (⟨S65536x512, .f32⟩ : BufTy).Contents (Elt F)),
    unary main_arg9 main_v46 (broadcastInDim S1x512 ![1] bcast_S512_S1x512_1 : (⟨S512, .f32⟩ : BufTy).Contents (Elt F) → (⟨S1x512, .f32⟩ : BufTy).Contents (Elt F)),
    unary main_v46 main_v47 (broadcastInDim S65536x512 ![0, 1] bcast_S1x512_S65536x512_0_1 : (⟨S1x512, .f32⟩ : BufTy).Contents (Elt F) → (⟨S65536x512, .f32⟩ : BufTy).Contents (Elt F)),
    binary main_v45 main_v47 main_v48 (addf : (⟨S65536x512, .f32⟩ : BufTy).Contents (Elt F) → (⟨S65536x512, .f32⟩ : BufTy).Contents (Elt F) → (⟨S65536x512, .f32⟩ : BufTy).Contents (Elt F)),
    nullary main_cst_8 (constant S_ .f32 0x00000000#32) ]

/-- The second window: the vector branch's rectifier. -/
abbrev ops_part1 : List (HloOp τ sig (Elt F)) :=
  [ unary main_cst_8 main_v49 (broadcastInDim S65536x512 ![] bcast_S_S65536x512 : (⟨S_, .f32⟩ : BufTy).Contents (Elt F) → (⟨S65536x512, .f32⟩ : BufTy).Contents (Elt F)),
    binary main_v48 main_v49 main_v50 (cmpf .oge : (⟨S65536x512, .f32⟩ : BufTy).Contents (Elt F) → (⟨S65536x512, .f32⟩ : BufTy).Contents (Elt F) → (⟨S65536x512, .i1⟩ : BufTy).Contents (Elt F)),
    nullary main_cst_9 (constant S_ .f32 0x3C23D70A#32),
    unary main_cst_9 main_v51 (broadcastInDim S65536x512 ![] bcast_S_S65536x512 : (⟨S_, .f32⟩ : BufTy).Contents (Elt F) → (⟨S65536x512, .f32⟩ : BufTy).Contents (Elt F)),
    binary main_v51 main_v48 main_v52 (mulf : (⟨S65536x512, .f32⟩ : BufTy).Contents (Elt F) → (⟨S65536x512, .f32⟩ : BufTy).Contents (Elt F) → (⟨S65536x512, .f32⟩ : BufTy).Contents (Elt F)),
    TRef.ternary (.of main_v50) (.of main_v48) (.of main_v52) main_call3.v0 select ]

set_option maxRecDepth 8192 in
theorem ops_part0_sub : (ops_part0 : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., ternary_bufs_sub ..⟩

end Cert.ReferenceIdeal.HostRun

end
-- ==== Proof.RefRun.lean ====
/-
  The reference program's run, read back.

  The reference's @main is a straight line of host operations once the helper functions jax outlined are put
  back at their call sites (the imported lists). The program equals the sequence of those operations, so every
  weakly fair execution terminates and leaves each buffer at the fold of the operations over the launch contents.
-/
import proofs.«165396_j1288490189005_2_alg».proof.Proof.RefOps
import Idealize.ShloMosaic.Lib.StableHlo.Run
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- All of @main's operations, in order. -/
abbrev ops : List (HloOp τ sig (Elt F)) := ops_part0 ++ ops_part1

/-- Each printed window is the sequence of its operations: unfolding a helper's body at its call gives the
    same chain of steps, up to the association of sequencing. -/
theorem main_part0_eq (c : Dev nD) : main_part0 (F := F) c = seq ops_part0 := by
  chain_rfl
theorem main_part1_eq (c : Dev nD) : main_part1 (F := F) c = seq ops_part1 := by
  chain_rfl
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- Every weakly fair execution of the reference terminates, each buffer at the operations' fold over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefDefs.lean ====
/-
  The reference's result arrays as whole-array functions of its arguments, stage by stage.

  Per branch: the row means as a column; the row variances as a column, the way the variance helper computes them
  (the mean again, the squared deviations, their row sums over `768 - ddof` with `ddof = 0` an integer argument,
  under a guard that selects a NaN when that count is not positive); the normalized, scaled and shifted array;
  and the head — the product with the weights, the bias, the leaky rectifier.
-/
import proofs.«165396_j1288490189005_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The row means, as a column. -/
def rMean (x : FVec Ideal S65536x768 .f32) : FVec Ideal S65536x1 .f32 :=
  Host.divf
    (broadcastInDim S65536x1 ![0] bcast_S65536_S65536x1_0
      (Host.reduceAdd x (constant S_ .f32 0x00000000#32) reducesTo_S65536x768_S65536_d1 h_S_))
    (broadcastInDim S65536x1 ![] bcast_S_S65536x1 (constant S_ .f32 0x44400000#32))

/-- The count the variance helper divides by: `768 - ddof`. -/
def rCount (c : IVec S_ 32) : FVec Ideal S_ .f32 :=
  subf (constant S_ .f32 0x44400000#32) (sitofp .f32 c)

/-- The deviations from the row means. -/
def rDev (x : FVec Ideal S65536x768 .f32) : FVec Ideal S65536x768 .f32 :=
  subf x (broadcastInDim S65536x768 ![0, 1] bcast_S65536x1_S65536x768_0_1 (rMean x))

/-- The row variances as the helper computes them, as a column. -/
def rVar (x : FVec Ideal S65536x768 .f32) (c : IVec S_ 32) : FVec Ideal S65536x1 .f32 :=
  select (broadcastInDim S65536x1 ![] bcast_S_S65536x1 (cmpf .ogt (rCount c) (constant S_ .f32 0x00000000#32)))
    (Host.divf
      (broadcastInDim S65536x1 ![0] bcast_S65536_S65536x1_0
        (Host.reduceAdd (mulf (rDev x) (rDev x)) (constant S_ .f32 0x00000000#32) reducesTo_S65536x768_S65536_d1 h_S_))
      (broadcastInDim S65536x1 ![] bcast_S_S65536x1 (rCount c)))
    (broadcastInDim S65536x1 ![] bcast_S_S65536x1 (id (constant S_ .f32 0x7FC00000#32)))

/-- The normalized, scaled and shifted array. -/
def rNorm (x : FVec Ideal S65536x768 .f32) (g be : FVec Ideal S768 .f32) : FVec Ideal S65536x768 .f32 :=
  addf
    (mulf
      (mulf (rDev x)
        (broadcastInDim S65536x768 ![0, 1] bcast_S65536x1_S65536x768_0_1
          (Host.rsqrt (addf (rVar x (constantI S_ 32 0#32))
            (broadcastInDim S65536x1 ![] bcast_S_S65536x1 (constant S_ .f32 0x3727C5AC#32))))))
      (broadcastInDim S65536x768 ![0, 1] bcast_S1x768_S65536x768_0_1 (broadcastInDim S1x768 ![1] bcast_S768_S1x768_1 g)))
    (broadcastInDim S65536x768 ![0, 1] bcast_S1x768_S65536x768_0_1 (broadcastInDim S1x768 ![1] bcast_S768_S1x768_1 be))

/-- The context branch's pre-activation: the product with the 768 × 768 weights plus the bias. -/
def rLin768 (xn : FVec Ideal S65536x768 .f32) (w : FVec Ideal S768x768 .f32) (bi : FVec Ideal S768 .f32) :
    FVec Ideal S65536x768 .f32 :=
  addf (Host.dotGeneral dot_S65536x768_S768x768_S65536x768_1_0_0_1_n_n none xn w)
    (broadcastInDim S65536x768 ![0, 1] bcast_S1x768_S65536x768_0_1 (broadcastInDim S1x768 ![1] bcast_S768_S1x768_1 bi))

/-- The leaky rectifier over a 768-column array. -/
def rLeaky768 (y : FVec Ideal S65536x768 .f32) : FVec Ideal S65536x768 .f32 :=
  select (cmpf .oge y (broadcastInDim S65536x768 ![] bcast_S_S65536x768 (constant S_ .f32 0x00000000#32))) y
    (mulf (broadcastInDim S65536x768 ![] bcast_S_S65536x768 (constant S_ .f32 0x3C23D70A#32)) y)

/-- The vector branch's pre-activation: the product with the 768 × 512 weights plus the bias. -/
def rLin512 (xn : FVec Ideal S65536x768 .f32) (w : FVec Ideal S768x512 .f32) (bi : FVec Ideal S512 .f32) :
    FVec Ideal S65536x512 .f32 :=
  addf (Host.dotGeneral dot_S65536x768_S768x512_S65536x512_1_0_0_1_n_n none xn w)
    (broadcastInDim S65536x512 ![0, 1] bcast_S1x512_S65536x512_0_1 (broadcastInDim S1x512 ![1] bcast_S512_S1x512_1 bi))

/-- The leaky rectifier over a 512-column array. -/
def rLeaky512 (y : FVec Ideal S65536x512 .f32) : FVec Ideal S65536x512 .f32 :=
  select (cmpf .oge y (broadcastInDim S65536x512 ![] bcast_S_S65536x512 (constant S_ .f32 0x00000000#32))) y
    (mulf (broadcastInDim S65536x512 ![] bcast_S_S65536x512 (constant S_ .f32 0x3C23D70A#32)) y)

end Cert.ReferenceIdeal.RefValue

end
-- ==== Proof.RefTerm.lean ====
/-
  What the reference's two result buffers hold after its operations: the stage functions of the argument
  buffers' launch contents; and that the operations leave the argument buffers as they were.

  The first window computes the context branch whole and the vector branch up to its bias add; the second
  applies the vector branch's rectifier. Each buffer after a window is read by following the operations that
  write it back to the arguments; the two windows compose.
-/
import proofs.«165396_j1288490189005_2_alg».proof.Proof.RefRun
import proofs.«165396_j1288490189005_2_alg».proof.Proof.RefDefs
import Idealize.ShloMosaic.Lib.Pipeline.Frame

noncomputable section

namespace Cert.ReferenceIdeal.HostRun

open Cert.ReferenceIdeal Cert.ReferenceIdeal.Gen Cert.ReferenceIdeal.RefValue Idealize.ShloMosaic Idealize.ShloMosaic.TcCoe Idealize.SL.Sem Idealize.ShloMosaic.StableHlo

/-! ## The first window -/

set_option maxRecDepth 8192 in
set_option maxHeartbeats 4000000 in
theorem part0_v26 (V : Valuation τ sig (Elt Ideal)) :
    after (ops_part0 (F := Ideal)) V (Proc.devRef .tc main_v26 : DevRef τ sig)
      = rLeaky768 (rLin768 (rNorm (V (Proc.devRef .tc main_arg1 : DevRef τ sig)) (V (Proc.devRef .tc main_arg2 : DevRef τ sig)) (V (Proc.devRef .tc main_arg3 : DevRef τ sig)))
          (V (Proc.devRef .tc main_arg4 : DevRef τ sig)) (V (Proc.devRef .tc main_arg5 : DevRef τ sig))) := by
  after_results_simp
  rfl

set_option maxRecDepth 8192 in
set_option maxHeartbeats 4000000 in
theorem part0_v48 (V : Valuation τ sig (Elt Ideal)) :
    after (ops_part0 (F := Ideal)) V (Proc.devRef .tc main_v48 : DevRef τ sig)
      = rLin512 (rNorm (V (Proc.devRef .tc main_arg0 : DevRef τ sig)) (V (Proc.devRef .tc main_arg6 : DevRef τ sig)) (V (Proc.devRef .tc main_arg7 : DevRef τ sig)))
          (V (Proc.devRef .tc main_arg8 : DevRef τ sig)) (V (Proc.devRef .tc main_arg9 : DevRef τ sig)) := by
  after_results_simp
  rfl

set_option maxRecDepth 8192 in
set_option maxHeartbeats 4000000 in
theorem part0_cst8 (V : Valuation τ sig (Elt Ideal)) :
    after (ops_part0 (F := Ideal)) V (Proc.devRef .tc main_cst_8 : DevRef τ sig) = constant (F := Ideal) S_ .f32 0x00000000#32 := by
  after_results_simp

set_option maxRecDepth 8192 in
set_option maxHeartbeats 4000000 in
theorem part0_arg0 (V : Valuation τ sig (Elt Ideal)) :
    after (ops_part0 (F := Ideal)) V (Proc.devRef .tc main_arg0 : DevRef τ sig) = V (Proc.devRef .tc main_arg0 : DevRef τ sig) := by
  after_results_simp
set_option maxRecDepth 8192 in
set_option maxHeartbeats 4000000 in
theorem part0_arg1 (V : Valuation τ sig (Elt Ideal)) :
    after (ops_part0 (F := Ideal)) V (Proc.devRef .tc main_arg1 : DevRef τ sig) = V (Proc.devRef .tc main_arg1 : DevRef τ sig) := by
  after_results_simp
set_option maxRecDepth 8192 in
set_option maxHeartbeats 4000000 in
theorem part0_arg2 (V : Valuation τ sig (Elt Ideal)) :
    after (ops_part0 (F := Ideal)) V (Proc.devRef .tc main_arg2 : DevRef τ sig) = V (Proc.devRef .tc main_arg2 : DevRef τ sig) := by
  after_results_simp
set_option maxRecDepth 8192 in
set_option maxHeartbeats 4000000 in
theorem part0_arg3 (V : Valuation τ sig (Elt Ideal)) :
    after (ops_part0 (F := Ideal)) V (Proc.devRef .tc main_arg3 : DevRef τ sig) = V (Proc.devRef .tc main_arg3 : DevRef τ sig) := by
  after_results_simp
set_option maxRecDepth 8192 in
set_option maxHeartbeats 4000000 in
theorem part0_arg4 (V : Valuation τ sig (Elt Ideal)) :
    after (ops_part0 (F := Ideal)) V (Proc.devRef .tc main_arg4 : DevRef τ sig) = V (Proc.devRef .tc main_arg4 : DevRef τ sig) := by
  after_results_simp
set_option maxRecDepth 8192 in
set_option maxHeartbeats 4000000 in
theorem part0_arg5 (V : Valuation τ sig (Elt Ideal)) :
    after (ops_part0 (F := Ideal)) V (Proc.devRef .tc main_arg5 : DevRef τ sig) = V (Proc.devRef .tc main_arg5 : DevRef τ sig) := by
  after_results_simp
set_option maxRecDepth 8192 in
set_option maxHeartbeats 4000000 in
theorem part0_arg6 (V : Valuation τ sig (Elt Ideal)) :
    after (ops_part0 (F := Ideal)) V (Proc.devRef .tc main_arg6 : DevRef τ sig) = V (Proc.devRef .tc main_arg6 : DevRef τ sig) := by
  after_results_simp
set_option maxRecDepth 8192 in
set_option maxHeartbeats 4000000 in
theorem part0_arg7 (V : Valuation τ sig (Elt Ideal)) :
    after (ops_part0 (F := Ideal)) V (Proc.devRef .tc main_arg7 : DevRef τ sig) = V (Proc.devRef .tc main_arg7 : DevRef τ sig) := by
  after_results_simp
set_option maxRecDepth 8192 in
set_option maxHeartbeats 4000000 in
theorem part0_arg8 (V : Valuation τ sig (Elt Ideal)) :
    after (ops_part0 (F := Ideal)) V (Proc.devRef .tc main_arg8 : DevRef τ sig) = V (Proc.devRef .tc main_arg8 : DevRef τ sig) := by
  after_results_simp
set_option maxRecDepth 8192 in
set_option maxHeartbeats 4000000 in
theorem part0_arg9 (V : Valuation τ sig (Elt Ideal)) :
    after (ops_part0 (F := Ideal)) V (Proc.devRef .tc main_arg9 : DevRef τ sig) = V (Proc.devRef .tc main_arg9 : DevRef τ sig) := by
  after_results_simp

/-! ## The second window -/

theorem part1_v53 (W : Valuation τ sig (Elt Ideal)) :
    after (ops_part1 (F := Ideal)) W (Proc.devRef .tc main_v53 : DevRef τ sig)
      = select (cmpf (F := Ideal) (φ := .f32) .oge (W (Proc.devRef .tc main_v48 : DevRef τ sig) : FVec Ideal S65536x512 .f32) (broadcastInDim (s := S_) S65536x512 ![] bcast_S_S65536x512 (W (Proc.devRef .tc main_cst_8 : DevRef τ sig) : FVec Ideal S_ .f32)))
          (W (Proc.devRef .tc main_v48 : DevRef τ sig) : FVec Ideal S65536x512 .f32)
          (mulf (F := Ideal) (φ := .f32) (broadcastInDim (s := S_) S65536x512 ![] bcast_S_S65536x512 (constant (F := Ideal) S_ .f32 0x3C23D70A#32)) (W (Proc.devRef .tc main_v48 : DevRef τ sig) : FVec Ideal S65536x512 .f32)) := by
  after_results_simp
  rfl

theorem part1_v26 (W : Valuation τ sig (Elt Ideal)) :
    after (ops_part1 (F := Ideal)) W (Proc.devRef .tc main_v26 : DevRef τ sig) = W (Proc.devRef .tc main_v26 : DevRef τ sig) := by
  after_results_simp

theorem part1_arg0 (W : Valuation τ sig (Elt Ideal)) :
    after (ops_part1 (F := Ideal)) W (Proc.devRef .tc main_arg0 : DevRef τ sig) = W (Proc.devRef .tc main_arg0 : DevRef τ sig) := by
  after_results_simp
theorem part1_arg1 (W : Valuation τ sig (Elt Ideal)) :
    after (ops_part1 (F := Ideal)) W (Proc.devRef .tc main_arg1 : DevRef τ sig) = W (Proc.devRef .tc main_arg1 : DevRef τ sig) := by
  after_results_simp
theorem part1_arg2 (W : Valuation τ sig (Elt Ideal)) :
    after (ops_part1 (F := Ideal)) W (Proc.devRef .tc main_arg2 : DevRef τ sig) = W (Proc.devRef .tc main_arg2 : DevRef τ sig) := by
  after_results_simp
theorem part1_arg3 (W : Valuation τ sig (Elt Ideal)) :
    after (ops_part1 (F := Ideal)) W (Proc.devRef .tc main_arg3 : DevRef τ sig) = W (Proc.devRef .tc main_arg3 : DevRef τ sig) := by
  after_results_simp
theorem part1_arg4 (W : Valuation τ sig (Elt Ideal)) :
    after (ops_part1 (F := Ideal)) W (Proc.devRef .tc main_arg4 : DevRef τ sig) = W (Proc.devRef .tc main_arg4 : DevRef τ sig) := by
  after_results_simp
theorem part1_arg5 (W : Valuation τ sig (Elt Ideal)) :
    after (ops_part1 (F := Ideal)) W (Proc.devRef .tc main_arg5 : DevRef τ sig) = W (Proc.devRef .tc main_arg5 : DevRef τ sig) := by
  after_results_simp
theorem part1_arg6 (W : Valuation τ sig (Elt Ideal)) :
    after (ops_part1 (F := Ideal)) W (Proc.devRef .tc main_arg6 : DevRef τ sig) = W (Proc.devRef .tc main_arg6 : DevRef τ sig) := by
  after_results_simp
theorem part1_arg7 (W : Valuation τ sig (Elt Ideal)) :
    after (ops_part1 (F := Ideal)) W (Proc.devRef .tc main_arg7 : DevRef τ sig) = W (Proc.devRef .tc main_arg7 : DevRef τ sig) := by
  after_results_simp
theorem part1_arg8 (W : Valuation τ sig (Elt Ideal)) :
    after (ops_part1 (F := Ideal)) W (Proc.devRef .tc main_arg8 : DevRef τ sig) = W (Proc.devRef .tc main_arg8 : DevRef τ sig) := by
  after_results_simp
theorem part1_arg9 (W : Valuation τ sig (Elt Ideal)) :
    after (ops_part1 (F := Ideal)) W (Proc.devRef .tc main_arg9 : DevRef τ sig) = W (Proc.devRef .tc main_arg9 : DevRef τ sig) := by
  after_results_simp

/-! ## Both windows -/

/-- The context branch's result buffer after the run. -/
theorem out_v26 (V : Valuation τ sig (Elt Ideal)) :
    after (ops (F := Ideal)) V (Proc.devRef .tc main_v26 : DevRef τ sig)
      = rLeaky768 (rLin768 (rNorm (V (Proc.devRef .tc main_arg1 : DevRef τ sig)) (V (Proc.devRef .tc main_arg2 : DevRef τ sig)) (V (Proc.devRef .tc main_arg3 : DevRef τ sig)))
          (V (Proc.devRef .tc main_arg4 : DevRef τ sig)) (V (Proc.devRef .tc main_arg5 : DevRef τ sig))) := by
  rw [StableHlo.after_append, part1_v26, part0_v26]

/-- The vector branch's result buffer after the run. -/
theorem out_v53 (V : Valuation τ sig (Elt Ideal)) :
    after (ops (F := Ideal)) V (Proc.devRef .tc main_v53 : DevRef τ sig)
      = rLeaky512 (rLin512 (rNorm (V (Proc.devRef .tc main_arg0 : DevRef τ sig)) (V (Proc.devRef .tc main_arg6 : DevRef τ sig)) (V (Proc.devRef .tc main_arg7 : DevRef τ sig)))
          (V (Proc.devRef .tc main_arg8 : DevRef τ sig)) (V (Proc.devRef .tc main_arg9 : DevRef τ sig))) := by
  rw [StableHlo.after_append, part1_v53, part0_v48, part0_cst8]
  rfl

theorem out_arg0 (V : Valuation τ sig (Elt Ideal)) :
    after (ops (F := Ideal)) V (Proc.devRef .tc main_arg0 : DevRef τ sig) = V (Proc.devRef .tc main_arg0 : DevRef τ sig) := by
  rw [StableHlo.after_append, part1_arg0, part0_arg0]
theorem out_arg1 (V : Valuation τ sig (Elt Ideal)) :
    after (ops (F := Ideal)) V (Proc.devRef .tc main_arg1 : DevRef τ sig) = V (Proc.devRef .tc main_arg1 : DevRef τ sig) := by
  rw [StableHlo.after_append, part1_arg1, part0_arg1]
theorem out_arg2 (V : Valuation τ sig (Elt Ideal)) :
    after (ops (F := Ideal)) V (Proc.devRef .tc main_arg2 : DevRef τ sig) = V (Proc.devRef .tc main_arg2 : DevRef τ sig) := by
  rw [StableHlo.after_append, part1_arg2, part0_arg2]
theorem out_arg3 (V : Valuation τ sig (Elt Ideal)) :
    after (ops (F := Ideal)) V (Proc.devRef .tc main_arg3 : DevRef τ sig) = V (Proc.devRef .tc main_arg3 : DevRef τ sig) := by
  rw [StableHlo.after_append, part1_arg3, part0_arg3]
theorem out_arg4 (V : Valuation τ sig (Elt Ideal)) :
    after (ops (F := Ideal)) V (Proc.devRef .tc main_arg4 : DevRef τ sig) = V (Proc.devRef .tc main_arg4 : DevRef τ sig) := by
  rw [StableHlo.after_append, part1_arg4, part0_arg4]
theorem out_arg5 (V : Valuation τ sig (Elt Ideal)) :
    after (ops (F := Ideal)) V (Proc.devRef .tc main_arg5 : DevRef τ sig) = V (Proc.devRef .tc main_arg5 : DevRef τ sig) := by
  rw [StableHlo.after_append, part1_arg5, part0_arg5]
theorem out_arg6 (V : Valuation τ sig (Elt Ideal)) :
    after (ops (F := Ideal)) V (Proc.devRef .tc main_arg6 : DevRef τ sig) = V (Proc.devRef .tc main_arg6 : DevRef τ sig) := by
  rw [StableHlo.after_append, part1_arg6, part0_arg6]
theorem out_arg7 (V : Valuation τ sig (Elt Ideal)) :
    after (ops (F := Ideal)) V (Proc.devRef .tc main_arg7 : DevRef τ sig) = V (Proc.devRef .tc main_arg7 : DevRef τ sig) := by
  rw [StableHlo.after_append, part1_arg7, part0_arg7]
theorem out_arg8 (V : Valuation τ sig (Elt Ideal)) :
    after (ops (F := Ideal)) V (Proc.devRef .tc main_arg8 : DevRef τ sig) = V (Proc.devRef .tc main_arg8 : DevRef τ sig) := by
  rw [StableHlo.after_append, part1_arg8, part0_arg8]
theorem out_arg9 (V : Valuation τ sig (Elt Ideal)) :
    after (ops (F := Ideal)) V (Proc.devRef .tc main_arg9 : DevRef τ sig) = V (Proc.devRef .tc main_arg9 : DevRef τ sig) := by
  rw [StableHlo.after_append, part1_arg9, part0_arg9]

end Cert.ReferenceIdeal.HostRun

end
-- ==== Proof.RefRead.lean ====
/-
  The reference's result arrays read at one entry.

  Entry `(r, j)` of either result depends only on row `r` of the branch's input: it is `rowOut` of that row with the
  two-pass variance. The helper's guard is settled by arithmetic (`768 - 0 = 768 > 0`, so the NaN arm is never
  taken); a host sum is its initial value `0` plus the row's sum; the broadcasts read a column at the row, a row
  at the column, a scalar everywhere.
-/
import proofs.«165396_j1288490189005_2_alg».proof.Proof.RefDefs
import proofs.«165396_j1288490189005_2_alg».proof.Proof.Spec
import proofs.«165396_j1288490189005_2_alg».proof.Proof.LibIndex

noncomputable section

namespace Cert.ReferenceIdeal.RefValue

open Cert.ReferenceIdeal Cert.ReferenceIdeal.Gen Idealize.ShloMosaic Idealize.ShloMosaic.ValueIdx Cert.Mixer Cert.LayoutLib

theorem reduces_rows : S65536x768.Reduces [(1 : Fin 2)] S65536 := by decide

theorem rMean_apply (x : FVec Ideal S65536x768 .f32) (r : Fin 65536) (u : Fin 1) :
    rMean x (ix2 r u) = rowMean (fun k => x (ix2 r k)) := by
  unfold rMean rowMean
  show Ideal.div (broadcastInDim (s := S65536) S65536x1 ![0] bcast_S65536_S65536x1_0 _ (ix2 r u))
      (broadcastInDim (s := S_) S65536x1 ![] bcast_S_S65536x1 (constant (F := Ideal) S_ .f32 0x44400000#32) (ix2 r u)) = _
  rw [broadcastInDim_vecCol_apply, broadcastInDim_scalar_apply]
  show Ideal.div (Ideal.hostReduceAdd reducesTo_S65536x768_S65536_d1 x (Ideal.ofBits .f32 0x00000000#32) (ix1 r))
      (Ideal.ofBits .f32 0x44400000#32) = _
  rw [hostReduceAdd_row_apply _ reduces_rows, Ideal.ofBits_zero_f32, zero_add]

/-- The helper's count `768 - ddof` at `ddof = 0` is `768`. -/
theorem rCount_zero : rCount (constantI S_ 32 0#32) ix0 = Ideal.ofBits .f32 0x44400000#32 := by
  show Ideal.ofBits .f32 0x44400000#32 - (((0#32 : BitVec 32).toInt : ℝ) : EReal) = _
  simp

/-- So the guard `768 - ddof > 0` holds. -/
theorem guard_true :
    cmpf (F := Ideal) .ogt (rCount (constantI S_ 32 0#32)) (constant S_ .f32 0x00000000#32) ix0 = 1#1 := by
  show Ideal.cmp .ogt (rCount (constantI S_ 32 0#32) ix0) (Ideal.ofBits .f32 0x00000000#32) = 1#1
  rw [rCount_zero, ofBits_768, Ideal.ofBits_zero_f32]
  have h : (0 : EReal) < ((768 : ℝ) : EReal) := EReal.coe_pos.mpr (by norm_num)
  simp [Ideal.cmp, h]

theorem rDev_apply (x : FVec Ideal S65536x768 .f32) (r : Fin 65536) (k : Fin 768) :
    rDev x (ix2 r k) = x (ix2 r k) - rowMean (fun k => x (ix2 r k)) := by
  unfold rDev
  show x (ix2 r k) - broadcastInDim S65536x768 ![0, 1] bcast_S65536x1_S65536x768_0_1 (rMean x) (ix2 r k) = _
  rw [broadcastInDim_col_apply, rMean_apply]

theorem rVar_apply (x : FVec Ideal S65536x768 .f32) (r : Fin 65536) (u : Fin 1) :
    rVar x (constantI S_ 32 0#32) (ix2 r u) = varTwoPass (fun k => x (ix2 r k)) := by
  unfold rVar varTwoPass
  show Scalar.select (broadcastInDim (s := S_) S65536x1 ![] bcast_S_S65536x1 _ (ix2 r u))
      (Ideal.div (broadcastInDim (s := S65536) S65536x1 ![0] bcast_S65536_S65536x1_0 _ (ix2 r u))
        (broadcastInDim (s := S_) S65536x1 ![] bcast_S_S65536x1 (rCount (constantI S_ 32 0#32)) (ix2 r u)))
      (broadcastInDim (s := S_) S65536x1 ![] bcast_S_S65536x1 _ (ix2 r u)) = _
  rw [broadcastInDim_scalar_apply, guard_true, select_one, broadcastInDim_vecCol_apply, broadcastInDim_scalar_apply, rCount_zero]
  show Ideal.div (Ideal.hostReduceAdd reducesTo_S65536x768_S65536_d1 (mulf (rDev x) (rDev x)) (Ideal.ofBits .f32 0x00000000#32) (ix1 r)) _ = _
  rw [hostReduceAdd_row_apply _ reduces_rows, Ideal.ofBits_zero_f32, zero_add]
  refine congrArg (Ideal.div · _) (Finset.sum_congr rfl fun k _ => ?_)
  show rDev x (ix2 r k) * rDev x (ix2 r k) = _
  rw [rDev_apply]

theorem rNorm_apply (x : FVec Ideal S65536x768 .f32) (g be : FVec Ideal S768 .f32) (r : Fin 65536) (k : Fin 768) :
    rNorm x g be (ix2 r k)
      = normed (varTwoPass (fun k => x (ix2 r k))) (fun k => x (ix2 r k)) (fun k => g (ix1 k)) (fun k => be (ix1 k)) k := by
  unfold rNorm normed
  show rDev x (ix2 r k)
        * broadcastInDim (s := S65536x1) S65536x768 ![0, 1] bcast_S65536x1_S65536x768_0_1 _ (ix2 r k)
        * broadcastInDim S65536x768 ![0, 1] bcast_S1x768_S65536x768_0_1 (broadcastInDim S1x768 ![1] bcast_S768_S1x768_1 g) (ix2 r k)
      + broadcastInDim S65536x768 ![0, 1] bcast_S1x768_S65536x768_0_1 (broadcastInDim S1x768 ![1] bcast_S768_S1x768_1 be) (ix2 r k) = _
  rw [broadcastInDim_col_apply, broadcastInDim_row_apply, broadcastInDim_row_apply, broadcastInDim_vecRow_apply,
    broadcastInDim_vecRow_apply, rDev_apply]
  show _ * Ideal.rsqrt (rVar x (constantI S_ 32 0#32) (ix2 r (0 : Fin 1))
      + broadcastInDim (s := S_) S65536x1 ![] bcast_S_S65536x1 (constant (F := Ideal) S_ .f32 0x3727C5AC#32) (ix2 r (0 : Fin 1))) * _ + _ = _
  rw [rVar_apply, broadcastInDim_scalar_apply]
  rfl

theorem rLin768_apply (xn : FVec Ideal S65536x768 .f32) (w : FVec Ideal S768x768 .f32) (bi : FVec Ideal S768 .f32)
    (r : Fin 65536) (j : Fin 768) :
    rLin768 xn w bi (ix2 r j) = (∑ k : Fin 768, xn (ix2 r k) * w (ix2 k j)) + bi (ix1 j) := by
  unfold rLin768
  show FloatOps.dotGeneral dot_S65536x768_S768x768_S65536x768_1_0_0_1_n_n none .single xn w (ix2 r j)
      + broadcastInDim S65536x768 ![0, 1] bcast_S1x768_S65536x768_0_1 (broadcastInDim S1x768 ![1] bcast_S768_S1x768_1 bi) (ix2 r j) = _
  rw [Ideal.dotGeneral_apply, dot_plain_sum dot_S65536x768_S768x768_S65536x768_1_0_0_1_n_n rfl, broadcastInDim_row_apply,
    broadcastInDim_vecRow_apply]

theorem rLin512_apply (xn : FVec Ideal S65536x768 .f32) (w : FVec Ideal S768x512 .f32) (bi : FVec Ideal S512 .f32)
    (r : Fin 65536) (j : Fin 512) :
    rLin512 xn w bi (ix2 r j) = (∑ k : Fin 768, xn (ix2 r k) * w (ix2 k j)) + bi (ix1 j) := by
  unfold rLin512
  show FloatOps.dotGeneral dot_S65536x768_S768x512_S65536x512_1_0_0_1_n_n none .single xn w (ix2 r j)
      + broadcastInDim S65536x512 ![0, 1] bcast_S1x512_S65536x512_0_1 (broadcastInDim S1x512 ![1] bcast_S512_S1x512_1 bi) (ix2 r j) = _
  rw [Ideal.dotGeneral_apply, dot_plain_sum dot_S65536x768_S768x512_S65536x512_1_0_0_1_n_n rfl, broadcastInDim_row_apply,
    broadcastInDim_vecRow_apply]

theorem rLeaky768_apply (y : FVec Ideal S65536x768 .f32) (i : S65536x768.Idx) : rLeaky768 y i = leaky (y i) := by
  unfold rLeaky768 leaky
  show Scalar.select (Ideal.cmp .oge (y i) (broadcastInDim (s := S_) S65536x768 ![] bcast_S_S65536x768 (constant (F := Ideal) S_ .f32 0x00000000#32) i)) (y i)
      (broadcastInDim (s := S_) S65536x768 ![] bcast_S_S65536x768 (constant (F := Ideal) S_ .f32 0x3C23D70A#32) i * y i) = _
  rw [broadcastInDim_scalar_apply, broadcastInDim_scalar_apply]
  rfl

theorem rLeaky512_apply (y : FVec Ideal S65536x512 .f32) (i : S65536x512.Idx) : rLeaky512 y i = leaky (y i) := by
  unfold rLeaky512 leaky
  show Scalar.select (Ideal.cmp .oge (y i) (broadcastInDim (s := S_) S65536x512 ![] bcast_S_S65536x512 (constant (F := Ideal) S_ .f32 0x00000000#32) i)) (y i)
      (broadcastInDim (s := S_) S65536x512 ![] bcast_S_S65536x512 (constant (F := Ideal) S_ .f32 0x3C23D70A#32) i * y i) = _
  rw [broadcastInDim_scalar_apply, broadcastInDim_scalar_apply]
  rfl

/-- THE CONTEXT BRANCH of the reference at entry `(r, j)`. -/
theorem ctx_entry (x : FVec Ideal S65536x768 .f32) (g be : FVec Ideal S768 .f32) (w : FVec Ideal S768x768 .f32)
    (bi : FVec Ideal S768 .f32) (r : Fin 65536) (j : Fin 768) :
    rLeaky768 (rLin768 (rNorm x g be) w bi) (ix2 r j)
      = rowOut (varTwoPass (fun k => x (ix2 r k))) (fun k => x (ix2 r k)) (fun k => g (ix1 k)) (fun k => be (ix1 k))
          (fun k => w (ix2 k j)) (bi (ix1 j)) := by
  rw [rLeaky768_apply, rLin768_apply]
  simp only [rNorm_apply]
  rfl

/-- THE VECTOR BRANCH of the reference at entry `(r, j)`. -/
theorem vec_entry (x : FVec Ideal S65536x768 .f32) (g be : FVec Ideal S768 .f32) (w : FVec Ideal S768x512 .f32)
    (bi : FVec Ideal S512 .f32) (r : Fin 65536) (j : Fin 512) :
    rLeaky512 (rLin512 (rNorm x g be) w bi) (ix2 r j)
      = rowOut (varTwoPass (fun k => x (ix2 r k))) (fun k => x (ix2 r k)) (fun k => g (ix1 k)) (fun k => be (ix1 k))
          (fun k => w (ix2 k j)) (bi (ix1 j)) := by
  rw [rLeaky512_apply, rLin512_apply]
  simp only [rNorm_apply]
  rfl

end Cert.ReferenceIdeal.RefValue

end
-- ==== Proof.RefFinal.lean ====
/-
  The reference's run with its results named by the specification.

  Each result array of the reference is `mixOut varTwoPass` of the argument arrays: entry by entry, the stage
  functions read at an index are the row function with the two-pass variance.
-/
import proofs.«165396_j1288490189005_2_alg».proof.Proof.RefTerm
import proofs.«165396_j1288490189005_2_alg».proof.Proof.RefRead
import proofs.«165396_j1288490189005_2_alg».proof.Proof.Out

noncomputable section

namespace Cert.ReferenceIdeal.HostRun

open Cert.ReferenceIdeal Cert.ReferenceIdeal.Gen Cert.ReferenceIdeal.RefValue Idealize.ShloMosaic Idealize.ShloMosaic.TcCoe Idealize.SL.Sem
open Idealize.ShloMosaic.StableHlo Idealize.ShloMosaic.ValueIdx Cert.Mixer

/-- The context branch's stage functions compose to the two-pass result array. -/
theorem ref768_eq (x : FVec Ideal S65536x768 .f32) (g be : FVec Ideal S768 .f32) (w : FVec Ideal S768x768 .f32)
    (bi : FVec Ideal S768 .f32) : rLeaky768 (rLin768 (rNorm x g be) w bi) = mixOut varTwoPass x g be w bi := by
  funext i
  obtain ⟨r, j, rfl⟩ : ∃ (r : Fin 65536) (j : Fin 768), i = ix2 r j := ⟨i 0, i 1, eq_ix2 i⟩
  exact RefValue.ctx_entry x g be w bi r j

/-- The vector branch's stage functions compose to the two-pass result array. -/
theorem ref512_eq (x : FVec Ideal S65536x768 .f32) (g be : FVec Ideal S768 .f32) (w : FVec Ideal S768x512 .f32)
    (bi : FVec Ideal S512 .f32) : rLeaky512 (rLin512 (rNorm x g be) w bi) = mixOut varTwoPass x g be w bi := by
  funext i
  obtain ⟨r, j, rfl⟩ : ∃ (r : Fin 65536) (j : Fin 512), i = ix2 r j := ⟨i 0, i 1, eq_ix2 i⟩
  exact RefValue.vec_entry x g be w bi r j

/-- Every weakly fair execution of the reference terminates with its two results at the two-pass result arrays
    of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = mixOut varTwoPass (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53)
          = mixOut varTwoPass (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v26).trans ((out_v26 _).trans (ref768_eq _ _ _ _ _)),
     (h c main_v53).trans ((out_v53 _).trans (ref512_eq _ _ _ _ _)),
     (h c main_arg0).trans (out_arg0 _),
     (h c main_arg1).trans (out_arg1 _),
     (h c main_arg2).trans (out_arg2 _),
     (h c main_arg3).trans (out_arg3 _),
     (h c main_arg4).trans (out_arg4 _),
     (h c main_arg5).trans (out_arg5 _),
     (h c main_arg6).trans (out_arg6 _),
     (h c main_arg7).trans (out_arg7 _),
     (h c main_arg8).trans (out_arg8 _),
     (h c main_arg9).trans (out_arg9 _)⟩)
    (run_after m ρ)

end Cert.ReferenceIdeal.HostRun

end
-- ==== Proof.Finite.lean ====
/-
  What the precondition gives: the two input arrays hold real numbers.

  The precondition is the conjunction, over the ten arguments, of `all (|a| < +∞)`, printed as a left-nested chain
  of `and`s of reductions by `and`. A conjunction that is 1 has both conjuncts 1; a reduction by `and` that is 1 had
  a 1 at every entry; and an extended real whose absolute value `max x (-x)` is strictly below `+∞` is neither
  infinity, hence a real number. Only the two input arrays' finiteness is used (the variance identity needs it).
-/
import proofs.«165396_j1288490189005_2_alg».proof.Pre_finite_inputs
import proofs.«165396_j1288490189005_2_alg».proof.Proof.Gen.Pre_finite_inputs
import proofs.«165396_j1288490189005_2_alg».proof.Proof.LibIndex
import Idealize.ShloMosaic.Lib.ReduceAll
import Idealize.ShloMosaic.PureOps.Ideal.Laws

noncomputable section

namespace Cert.Pre_finite_inputs.Finite

open Cert.Pre_finite_inputs Cert.Pre_finite_inputs.Gen Idealize.ShloMosaic Idealize.ShloMosaic.ValueIdx Cert.LayoutLib

instance : Subsingleton S_.Idx := ⟨fun a b => funext fun d => d.elim0⟩

/-- The pattern of `+∞`. -/
theorem ofBits_inf : Ideal.ofBits .f32 0x7F800000#32 = ⊤ := by
  simp [Ideal.ofBits, Ideal.ieee]

/-- An extended real whose absolute value is strictly below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

theorem and_left {s : Shape} (x y : IVec s 1) (i : s.Idx) (h : andi x y i = 1#1) : x i = 1#1 :=
  (IntOp.andi_eq_one.1 h).1

theorem and_right {s : Shape} (x y : IVec s 1) (i : s.Idx) (h : andi x y i = 1#1) : y i = 1#1 :=
  (IntOp.andi_eq_one.1 h).2

/-- `all (|a| < +∞)` being 1 makes every entry of a 65536 × 768 array a real number. -/
theorem real_of_all (a : FVec Ideal S65536x768 .f32)
    (h : Host.reduce IntOp.andi
          (cmpf .olt (Host.absf a) (broadcastInDim S65536x768 ![] bcast_S_S65536x768 (constant (F := Ideal) S_ .f32 0x7F800000#32)))
          (constantI S_ 1 1#1) reducesTo_S65536x768_S_d0_1 h_S_ ix0 = 1#1)
    (i : S65536x768.Idx) : ∃ r : ℝ, a i = (r : EReal) := by
  have e := Host.reduce_andi_all _ _ reducesTo_S65536x768_S_d0_1 h_S_ ix0 h i
  refine real_of_abs_lt (a i) ?_
  have hb : broadcastInDim (s := S_) S65536x768 ![] bcast_S_S65536x768 (constant (F := Ideal) S_ .f32 0x7F800000#32) i
      = Ideal.ofBits .f32 0x7F800000#32 := broadcastInDim_scalar_apply _ _ i
  rw [← hb]
  exact e

/-- Under the precondition both input arrays hold real numbers. -/
theorem inputs_real (a0 a1 : FVec Ideal S65536x768 .f32) (a2 a3 : FVec Ideal S768 .f32) (a4 : FVec Ideal S768x768 .f32)
    (a5 a6 a7 : FVec Ideal S768 .f32) (a8 : FVec Ideal S768x512 .f32) (a9 : FVec Ideal S512 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) := by
  have h0 : fn (F := Ideal) a0 a1 a2 a3 a4 a5 a6 a7 a8 a9 ix0 = 1#1 := congrFun h ix0
  have e1 := and_left _ _ _ h0
  have e2 := and_left _ _ _ e1
  have e3 := and_left _ _ _ e2
  have e4 := and_left _ _ _ e3
  have e5 := and_left _ _ _ e4
  have e6 := and_left _ _ _ e5
  have e7 := and_left _ _ _ e6
  have e8 := and_left _ _ _ e7
  exact ⟨real_of_all a0 (and_left _ _ _ e8), real_of_all a1 (and_right _ _ _ e8)⟩

end Cert.Pre_finite_inputs.Finite

end
-- ==== Proof.lean ====
/-
  The certificate: a fused two-branch feature mixer (LayerNorm, linear layer, leaky rectifier, twice) against its
  jnp reference, over the extended reals.

  Both programs compute, for each input row, `leaky (∑ k, ((x k - μ) · rsqrt (v + ε) · γ k + β k) · w k + b)`; they differ
  in the variance `v`: the kernel takes the mean square minus the squared mean, clamped at zero; the reference the
  mean squared deviation. Under the precondition the inputs are real numbers, for which these agree
  (∑ (x k - μ)² = ∑ x k² - 768 μ² ≥ 0), so the two result arrays are one array.

  The kernel's side: its frame is the generated one; what its output arrays hold is read off the generated
  blockwise value leg (block `t` of 64 holds rows `1024 t …`), the body's arithmetic read at an entry.
  The reference's side: its @main as a list of host operations, its run, and the operations read at an entry.
  No rewrite was applied in printing the idealized kernel, so the preservation claim is trivial.
-/
import proofs.«165396_j1288490189005_2_alg».proof.Defs
import proofs.«165396_j1288490189005_2_alg».proof.Proof.Gen.Kernel
import proofs.«165396_j1288490189005_2_alg».proof.Proof.Gen.Kernel.Frame
import proofs.«165396_j1288490189005_2_alg».proof.Proof.Gen.KernelIdeal
import proofs.«165396_j1288490189005_2_alg».proof.Proof.Gen.KernelIdeal.Frame
import proofs.«165396_j1288490189005_2_alg».proof.Proof.Gen.KernelIdeal.Value
import proofs.«165396_j1288490189005_2_alg».proof.Proof.Gen.ReferenceIdeal
import proofs.«165396_j1288490189005_2_alg».proof.Proof.Gen.Pre_finite_inputs
import proofs.«165396_j1288490189005_2_alg».proof.Proof.KerValue
import proofs.«165396_j1288490189005_2_alg».proof.Proof.RefFinal
import proofs.«165396_j1288490189005_2_alg».proof.Proof.Finite
import proofs.«165396_j1288490189005_2_alg».proof.Proof.Out
import Idealize.ShloMosaic.Adequacy
import Idealize.ShloMosaic.Init

noncomputable section

namespace Cert.Proof

open Idealize.ShloMosaic Idealize.ShloMosaic.TcCoe Idealize.SL.Sem Cert.Mixer

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.HostRun.run m ρ)

/-- The two idealized programs end with equal results: the kernel at the one-pass result arrays, the reference at
    the two-pass ones, of arguments that agree and, by the precondition, hold real numbers. -/
theorem algebraic : Cert.algebraic_KernelIdeal_ReferenceIdeal := by
  intro m ρ m' ρ' hpre hagree
  refine ⟨fun c => mixOut varOnePass (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => mixOut varOnePass (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.HostRun.run m' ρ')
  · obtain ⟨a0, a1, a2, a3, a4, a5, a6, a7, a8, a9⟩ := hagree c
    rw [a1, a2, a3, a4, a5]
    exact mixOut_twoPass_eq_onePass _ _ _ _ _ (Cert.Pre_finite_inputs.Finite.inputs_real _ _ _ _ _ _ _ _ _ _ (hpre c)).2
  · obtain ⟨a0, a1, a2, a3, a4, a5, a6, a7, a8, a9⟩ := hagree c
    rw [a0, a6, a7, a8, a9]
    exact mixOut_twoPass_eq_onePass _ _ _ _ _ (Cert.Pre_finite_inputs.Finite.inputs_real _ _ _ _ _ _ _ _ _ _ (hpre c)).1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
